-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x128x80x80 : Shape := ⟨5, ![2, 16, 128, 80, 80]⟩
abbrev S_ : Shape := ⟨0, ![]⟩

class Facts : Prop where
  bcast_S_S2x16x128x80x80 : S_.BroadcastsInDim S2x16x128x80x80 (![] : Fin 0 → Fin S2x16x128x80x80.rank)
  reducesTo_S2x16x128x80x80_S_d0_1_2_3_4 : S2x16x128x80x80.ReducesTo [0, 1, 2, 3, 4] S_
  h_S_ : 0 < S_.numel

variable [Facts]

def fn {F : FTy → Type} [FloatOps F] (main_arg0 : FVec F S2x16x128x80x80 .f32) (main_arg1 : FVec F S2x16x128x80x80 .f32) (main_arg2 : FVec F S2x16x128x80x80 .f32) : IVec S_ 1 :=
  let main_v0 : FVec F S2x16x128x80x80 .f32 := Host.absf main_arg0
  let main_cst : FVec F S_ .f32 := constant S_ .f32 0x7F800000#32
  let main_v1 : FVec F S2x16x128x80x80 .f32 := broadcastInDim S2x16x128x80x80 ![] bcast_S_S2x16x128x80x80 main_cst
  let main_v2 : IVec S2x16x128x80x80 1 := cmpf .olt main_v0 main_v1
  let main_c : IVec S_ 1 := constantI S_ 1 1#1
  let main_v3 : IVec S_ 1 := (fun x v => Host.reduce IntOp.andi x v reducesTo_S2x16x128x80x80_S_d0_1_2_3_4 h_S_) main_v2 main_c
  let main_v4 : FVec F S2x16x128x80x80 .f32 := Host.absf main_arg1
  let main_cst_0 : FVec F S_ .f32 := constant S_ .f32 0x7F800000#32
  let main_v5 : FVec F S2x16x128x80x80 .f32 := broadcastInDim S2x16x128x80x80 ![] bcast_S_S2x16x128x80x80 main_cst_0
  let main_v6 : IVec S2x16x128x80x80 1 := cmpf .olt main_v4 main_v5
  let main_c_1 : IVec S_ 1 := constantI S_ 1 1#1
  let main_v7 : IVec S_ 1 := (fun x v => Host.reduce IntOp.andi x v reducesTo_S2x16x128x80x80_S_d0_1_2_3_4 h_S_) main_v6 main_c_1
  let main_v8 : IVec S_ 1 := andi main_v3 main_v7
  let main_v9 : FVec F S2x16x128x80x80 .f32 := Host.absf main_arg2
  let main_cst_2 : FVec F S_ .f32 := constant S_ .f32 0x7F800000#32
  let main_v10 : FVec F S2x16x128x80x80 .f32 := broadcastInDim S2x16x128x80x80 ![] bcast_S_S2x16x128x80x80 main_cst_2
  let main_v11 : IVec S2x16x128x80x80 1 := cmpf .olt main_v9 main_v10
  let main_c_3 : IVec S_ 1 := constantI S_ 1 1#1
  let main_v12 : IVec S_ 1 := (fun x v => Host.reduce IntOp.andi x v reducesTo_S2x16x128x80x80_S_d0_1_2_3_4 h_S_) main_v11 main_c_3
  let main_v13 : IVec S_ 1 := andi main_v8 main_v12
  main_v13
-- ==== Kernel.lean ====
abbrev S2x16x128x80x80 : Shape := ⟨5, ![2, 16, 128, 80, 80]⟩
abbrev S2x16x128x6400 : Shape := ⟨4, ![2, 16, 128, 6400]⟩
abbrev S2x128x128 : Shape := ⟨3, ![2, 128, 128]⟩
abbrev S1x1x128x6400 : Shape := ⟨4, ![1, 1, 128, 6400]⟩
abbrev S1x128x128 : Shape := ⟨3, ![1, 128, 128]⟩
abbrev S128x128 : Shape := ⟨2, ![128, 128]⟩
abbrev S128x6400 : Shape := ⟨2, ![128, 6400]⟩
abbrev S128 : Shape := ⟨1, ![128]⟩
abbrev S128x1 : Shape := ⟨2, ![128, 1]⟩

abbrev nBuf : Space → Nat
  | .hbm => 9
  | .vmem => 13
  | .smem => 0
  | _ => 0

abbrev bufTy : (tb : Table) → Fin (tcTables nBuf tb) → BufTy
  | .hbm, ⟨0, _⟩ => ⟨S2x16x128x80x80, .f32⟩
  | .hbm, ⟨1, _⟩ => ⟨S2x16x128x80x80, .f32⟩
  | .hbm, ⟨2, _⟩ => ⟨S2x16x128x80x80, .f32⟩
  | .hbm, ⟨3, _⟩ => ⟨S2x16x128x6400, .f32⟩
  | .hbm, ⟨4, _⟩ => ⟨S2x16x128x6400, .f32⟩
  | .hbm, ⟨5, _⟩ => ⟨S2x16x128x6400, .f32⟩
  | .hbm, ⟨6, _⟩ => ⟨S2x128x128, .f32⟩
  | .hbm, ⟨7, _⟩ => ⟨S2x16x128x6400, .f32⟩
  | .hbm, ⟨8, _⟩ => ⟨S2x16x128x80x80, .f32⟩
  | .local _ .vmem, ⟨0, _⟩ => ⟨S1x1x128x6400, .f32⟩
  | .local _ .vmem, ⟨1, _⟩ => ⟨S1x1x128x6400, .f32⟩
  | .local _ .vmem, ⟨2, _⟩ => ⟨S1x1x128x6400, .f32⟩
  | .local _ .vmem, ⟨3, _⟩ => ⟨S1x1x128x6400, .f32⟩
  | .local _ .vmem, ⟨4, _⟩ => ⟨S1x128x128, .f32⟩
  | .local _ .vmem, ⟨5, _⟩ => ⟨S1x128x128, .f32⟩
  | .local _ .vmem, ⟨6, _⟩ => ⟨S128x128, .f32⟩
  | .local _ .vmem, ⟨7, _⟩ => ⟨S1x128x128, .f32⟩
  | .local _ .vmem, ⟨8, _⟩ => ⟨S1x128x128, .f32⟩
  | .local _ .vmem, ⟨9, _⟩ => ⟨S1x1x128x6400, .f32⟩
  | .local _ .vmem, ⟨10, _⟩ => ⟨S1x1x128x6400, .f32⟩
  | .local _ .vmem, ⟨11, _⟩ => ⟨S1x1x128x6400, .f32⟩
  | .local _ .vmem, ⟨12, _⟩ => ⟨S1x1x128x6400, .f32⟩
  | _, _ => ⟨S2x16x128x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_12 : BitVec 32 := 0#32
  let v15 : BitVec 1 := Scalar.cmpi .ne v14 c0_i32_12
  v15

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x128x6400 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x128x6400 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S2x16x128x80x80_S2x16x128x6400 : S2x16x128x80x80.ShapeCasts S2x16x128x6400
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x1x128x6400_S1x1x128x6400_0_0_0_0 : ∀ a, (![0, 0, 0, 0] : Fin 4 → Nat) a + S1x1x128x6400.size a ≤ S1x1x128x6400.size a
  h_S1x1x128x6400 : 0 < S1x1x128x6400.numel
  shapeCasts_S1x1x128x6400_S128x6400 : S1x1x128x6400.ShapeCasts S128x6400
  reduces_S128x128_S128 : S128x128.Reduces [1] S128
  shapeCasts_S128_S128x1 : S128.ShapeCasts S128x1
  broadcasts_S128x1_S128x128 : S128x1.Broadcasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  bitsLt_bf16_f32 : FTy.bits .bf16 < FTy.bits .f32
  shapeCasts_S128x6400_S1x1x128x6400 : S128x6400.ShapeCasts S1x1x128x6400
  shapeCasts_S2x16x128x6400_S2x16x128x80x80 : S2x16x128x6400.ShapeCasts S2x16x128x80x80
  dot_S128x6400_S128x6400_S128x128_1_1_0_0_n_n_wf : DotDims.WF S128x6400 S128x6400 S128x128 [1] [1] [0] [0] [] []
  dot_S128x128_S128x6400_S128x6400_1_0_0_1_n_n_wf : DotDims.WF S128x128 S128x6400 S128x6400 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x6400.size a ≤ S2x16x128x6400.size a
  hwx0_0 : ∀ i : grid0.Coords, EltTy.bits .f32 = 32 ∨ (Rect.block (s := S2x16x128x6400) S1x1x128x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x6400.size a ≤ S2x16x128x6400.size a
  hwx0_1 : ∀ i : grid0.Coords, EltTy.bits .f32 = 32 ∨ (Rect.block (s := S2x16x128x6400) S1x1x128x6400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S2x128x128.size a
  hwx0_2 : ∀ i : grid0.Coords, EltTy.bits .f32 = 32 ∨ (Rect.block (s := S2x128x128) S1x128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128.size a ≤ S2x128x128.size a
  hwx1_0 : ∀ i : grid1.Coords, EltTy.bits .f32 = 32 ∨ (Rect.block (s := S2x128x128) S1x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128x6400.size a ≤ S2x16x128x6400.size a
  hwx1_1 : ∀ i : grid1.Coords, EltTy.bits .f32 = 32 ∨ (Rect.block (s := S2x16x128x6400) S1x1x128x6400.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128x6400.size a ≤ S2x16x128x6400.size a
  hwx1_2 : ∀ i : grid1.Coords, EltTy.bits .f32 = 32 ∨ (Rect.block (s := S2x16x128x6400) S1x1x128x6400.size (cc1_transform_2 i) (hinb1_2 i)).WholeWords (EltTy.packing .f32)

variable [Facts₀]

def dot_S128x6400_S128x6400_S128x128_1_1_0_0_n_n : DotDims S128x6400 S128x6400 S128x128 where
  lhsContracting := [1]
  rhsContracting := [1]
  lhsNonContracting := [0]
  rhsNonContracting := [0]
  lhsBatch := []
  rhsBatch := []
  wf := dot_S128x6400_S128x6400_S128x128_1_1_0_0_n_n_wf
def dot_S128x128_S128x6400_S128x6400_1_0_0_1_n_n : DotDims S128x128 S128x6400 S128x6400 where
  lhsContracting := [1]
  rhsContracting := [0]
  lhsNonContracting := [0]
  rhsNonContracting := [1]
  lhsBatch := []
  rhsBatch := []
  wf := dot_S128x128_S128x6400_S128x6400_1_0_0_1_n_n_wf

abbrev win0_0 : Pipeline.Window sig grid0 :=
  Pipeline.Window.ofSpec (Memref.whole main_v0) S1x1x128x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x128x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v3) S1x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1x128x6400.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1x128x6400.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x16x128x80x80 : Shape := ⟨5, ![2, 16, 128, 80, 80]⟩
abbrev S2x128x16x80x80 : Shape := ⟨5, ![2, 128, 16, 80, 80]⟩
abbrev S2x128x102400 : Shape := ⟨3, ![2, 128, 102400]⟩
abbrev S2x128x128 : Shape := ⟨3, ![2, 128, 128]⟩
abbrev S_ : Shape := ⟨0, ![]⟩
abbrev S2x128 : Shape := ⟨2, ![2, 128]⟩
abbrev S2x128x1 : Shape := ⟨3, ![2, 128, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x16x128x80x80, .f32⟩
  | .hbm, ⟨1, _⟩ => ⟨S2x16x128x80x80, .f32⟩
  | .hbm, ⟨2, _⟩ => ⟨S2x16x128x80x80, .f32⟩
  | .hbm, ⟨3, _⟩ => ⟨S2x128x16x80x80, .f32⟩
  | .hbm, ⟨4, _⟩ => ⟨S2x128x102400, .f32⟩
  | .hbm, ⟨5, _⟩ => ⟨S2x128x16x80x80, .f32⟩
  | .hbm, ⟨6, _⟩ => ⟨S2x128x102400, .f32⟩
  | .hbm, ⟨7, _⟩ => ⟨S2x128x16x80x80, .f32⟩
  | .hbm, ⟨8, _⟩ => ⟨S2x128x102400, .f32⟩
  | .hbm, ⟨9, _⟩ => ⟨S2x128x128, .f32⟩
  | .hbm, ⟨10, _⟩ => ⟨S_, .f32⟩
  | .hbm, ⟨11, _⟩ => ⟨S2x128, .f32⟩
  | .hbm, ⟨12, _⟩ => ⟨S_, .f32⟩
  | .hbm, ⟨13, _⟩ => ⟨S2x128, .f32⟩
  | .hbm, ⟨14, _⟩ => ⟨S2x128, .f32⟩
  | .hbm, ⟨15, _⟩ => ⟨S2x128x1, .f32⟩
  | .hbm, ⟨16, _⟩ => ⟨S2x128x128, .f32⟩
  | .hbm, ⟨17, _⟩ => ⟨S2x128x128, .f32⟩
  | .hbm, ⟨18, _⟩ => ⟨S2x128x128, .f32⟩
  | .hbm, ⟨19, _⟩ => ⟨S_, .f32⟩
  | .hbm, ⟨20, _⟩ => ⟨S2x128, .f32⟩
  | .hbm, ⟨21, _⟩ => ⟨S2x128x1, .f32⟩
  | .hbm, ⟨22, _⟩ => ⟨S2x128x128, .f32⟩
  | .hbm, ⟨23, _⟩ => ⟨S2x128x128, .f32⟩
  | .hbm, ⟨24, _⟩ => ⟨S2x128x102400, .f32⟩
  | .hbm, ⟨25, _⟩ => ⟨S2x128x16x80x80, .f32⟩
  | .hbm, ⟨26, _⟩ => ⟨S2x16x128x80x80, .f32⟩
  | _, _ => ⟨S2x16x128x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  transposes_S2x16x128x80x80_S2x128x16x80x80_0_2_1_3_4 : S2x16x128x80x80.Transposes [0, 2, 1, 3, 4] S2x128x16x80x80
  shapeCasts_S2x128x16x80x80_S2x128x102400 : S2x128x16x80x80.ShapeCasts S2x128x102400
  reducesTo_S2x128x128_S2x128_d2 : S2x128x128.ReducesTo [2] S2x128
  h_S_ : 0 < S_.numel
  bcast_S_S2x128 : S_.BroadcastsInDim S2x128 (![] : Fin 0 → Fin S2x128.rank)
  bcast_S2x128_S2x128x1_0_1 : S2x128.BroadcastsInDim S2x128x1 (![0, 1] : Fin 2 → Fin S2x128x1.rank)
  bcast_S2x128x1_S2x128x128_0_1_2 : S2x128x1.BroadcastsInDim S2x128x128 (![0, 1, 2] : Fin 3 → Fin S2x128x128.rank)
  shapeCasts_S2x128x102400_S2x128x16x80x80 : S2x128x102400.ShapeCasts S2x128x16x80x80
  transposes_S2x128x16x80x80_S2x16x128x80x80_0_2_1_3_4 : S2x128x16x80x80.Transposes [0, 2, 1, 3, 4] S2x16x128x80x80
  dot_S2x128x102400_S2x128x102400_S2x128x128_2_2_1_1_0_0_wf : DotDims.WF S2x128x102400 S2x128x102400 S2x128x128 [2] [2] [1] [1] [0] [0]
  dot_S2x128x128_S2x128x102400_S2x128x102400_2_1_1_2_0_0_wf : DotDims.WF S2x128x128 S2x128x102400 S2x128x102400 [2] [1] [1] [2] [0] [0]

variable [Facts₀]

def dot_S2x128x102400_S2x128x102400_S2x128x128_2_2_1_1_0_0 : DotDims S2x128x102400 S2x128x102400 S2x128x128 where
  lhsContracting := [2]
  rhsContracting := [2]
  lhsNonContracting := [1]
  rhsNonContracting := [1]
  lhsBatch := [0]
  rhsBatch := [0]
  wf := dot_S2x128x102400_S2x128x102400_S2x128x128_2_2_1_1_0_0_wf
def dot_S2x128x128_S2x128x102400_S2x128x102400_2_1_1_2_0_0 : DotDims S2x128x128 S2x128x102400 S2x128x102400 where
  lhsContracting := [2]
  rhsContracting := [1]
  lhsNonContracting := [1]
  rhsNonContracting := [2]
  lhsBatch := [0]
  rhsBatch := [0]
  wf := dot_S2x128x128_S2x128x102400_S2x128x102400_2_1_1_2_0_0_wf

class Facts : Prop extends Facts₀ where

variable [Facts]
-- ==== Proof.FrameK.Base.lean ====
/-
  What the two kernels' runs share.  The program runs two kernels one after the other over a grid of 2 x 16 points
  (b, c), point number t = 16 b + c.

  The first kernel keeps a 128 x 128 accumulator in a scratch buffer: at c = 0 it fills it with zeros, at every point
  it adds the product of the point's two input blocks, and at c = 15 it stores the softmax of the accumulator into its
  output block, which the pipeline writes back only there.  So its body has three cases, by which of the two
  conditions  c = 0  and  c = 15  hold (both cannot), decided here over the 32 points:  t % 16 = 0  and  t % 16 = 15.

  The second kernel has no condition: at every point it multiplies its first input block, refetched only when b
  changes, by its second, and stores the product, written back at every point.

  Everything is stated at a parameter V, the contents of the core's buffers when the kernel is entered.
-/
import proofs.«176884_j53326313947744_2_alg».proof.Proof.Gen.Kernel.Launch
import proofs.«176884_j53326313947744_2_alg».proof.Proof.Gen.Kernel.Skeleton
import proofs.«176884_j53326313947744_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The first kernel -/

/-- Window w's block at point t, read off its array as the kernel finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data over V whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The first condition of the body, c = 0, as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second condition, c = 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-- The inputs are never idle; the output is idle, and not written back, exactly where c is not 15. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- Each window's current staging memref at point t, as the pipeline passes it to the body, and that it is a whole buffer. -/
abbrev ms0_0 (t : Fin cfg0.N) : Memref sig .tc .vmem S1x1x128x6400 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x128x6400 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev accM : Memref sig .tc .vmem S128x128 .f32 := Memref.whole cc0_scratch0
/-- The views through which the output block's and the accumulator's contents are stated. -/
abbrev VO0 : View sig .tc .vmem S1x128x128 .f32 := (Memref.whole cc0_stg2_0 : Memref sig .tc .vmem S1x128x128 .f32).view
abbrev VS0 : View sig .tc .vmem S128x128 .f32 := accM.view

/-- The scoped buffers the first kernel never touches (the second kernel's staging buffers), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The invariant a kernel is entered with (every scoped buffer no window stages at some contents, the generator
    register at some state), with the accumulator named. -/
theorem PhiA0_eq (c : Dev nD) :
    (Pipeline.ΦA spec0 c : sProp 𝕄)
      = iprop(iprop((∃ d, owns (c : Thread nD τ) accM fullShare d) ∗ others0 (F := F) c) ∗ (∃ r, prngReg c r)) := by
  unfold Pipeline.ΦA others0; rw [scopedRest0_eq]; simp only [accM, owns_whole]; rfl

/-! ## The second kernel -/

/-- Window w's block at point t, read off its array as the kernel finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

abbrev ms1_0 (t : Fin cfg1.N) : Memref sig .tc .vmem S1x128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x128x6400 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x128x6400 .f32 := win1_2.stage (cfg1.slots t 2)
abbrev hs1_2 (t : Fin cfg1.N) : (ms1_2 t).IsWhole := hstage1_2 ((cfg1.slots t 2).cast nbuf1_2)
abbrev VO1 : View sig .tc .vmem S1x1x128x6400 .f32 := (Memref.whole cc1_stg2_0 : Memref sig .tc .vmem S1x1x128x6400 .f32).view

end Cert.Kernel.Fr

end
-- ==== Proof.FrameK.Run0A.lean ====
/-
  The first kernel's body run whole in case A: c = 0 and not c = 15 — the accumulator is zeroed, then the product of the two input blocks is added; the output block is left as found.
  On whole staging memrefs, the inputs' at their contents, the body runs to the continuation holding the inputs as they
  were and each buffer it stored into with its stores written; the list of stores each buffer ends with is found by the
  run itself.
-/
import proofs.«176884_j53326313947744_2_alg».proof.Proof.FrameK.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Case A: the accumulator may hold anything on entry; the output's buffer is handed back untouched. -/
noncomputable def run0A (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : cond0_0 i) (hc1 : ¬cond0_1 i)
    (x0 x1 : Vec F S1x1x128x6400 .f32) :
    Σ' (L2 : List (View.Piece (Elt F) S1x128x128 .f32)), { LS : List (View.Piece (Elt F) S128x128 .f32) //
      ∀ (xi2 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__scores_kernel i arg2 harg2 arg3 harg3 arg4 harg4 arg5 harg5) K } := by
  refine ⟨[], ?_, fun xi2 E K => ?run⟩
  case run =>
    simp only [cc0__scores_kernel_eq_skeleton]; unfold cc0__scores_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Fr

end
-- ==== Proof.FrameK.Run0B.lean ====
/-
  The first kernel's body run whole in case B: neither c = 0 nor c = 15 — the product of the two input blocks is added to the accumulator; the output block is left as found.
  On whole staging memrefs, the inputs' at their contents, the body runs to the continuation holding the inputs as they
  were and each buffer it stored into with its stores written; the list of stores each buffer ends with is found by the
  run itself.
-/
import proofs.«176884_j53326313947744_2_alg».proof.Proof.FrameK.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Case B: the accumulator holds xs on entry; the output's buffer is handed back untouched. -/
noncomputable def run0B (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : ¬cond0_1 i)
    (x0 x1 : Vec F S1x1x128x6400 .f32) (xs : Vec F S128x128 .f32) :
    Σ' (L2 : List (View.Piece (Elt F) S1x128x128 .f32)), { LS : List (View.Piece (Elt F) S128x128 .f32) //
      ∀ (xi2 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__scores_kernel i arg2 harg2 arg3 harg3 arg4 harg4 arg5 harg5) K } := by
  refine ⟨[], ?_, fun xi2 E K => ?run⟩
  case run =>
    simp only [cc0__scores_kernel_eq_skeleton]; unfold cc0__scores_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Fr

end
-- ==== Proof.FrameK.Run0C.lean ====
/-
  The first kernel's body run whole in case C: c = 15 and not c = 0 — the product of the two input blocks is added to the accumulator, and the softmax of the accumulator is stored into the output block.
  On whole staging memrefs, the inputs' at their contents, the body runs to the continuation holding the inputs as they
  were and each buffer it stored into with its stores written; the list of stores each buffer ends with is found by the
  run itself.
-/
import proofs.«176884_j53326313947744_2_alg».proof.Proof.FrameK.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Case C: the accumulator holds xs on entry; the output's buffer may hold anything and ends with its store written. -/
noncomputable def run0C (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i)
    (x0 x1 : Vec F S1x1x128x6400 .f32) (xs : Vec F S128x128 .f32) :
    Σ' (L2 : List (View.Piece (Elt F) S1x128x128 .f32)), { LS : List (View.Piece (Elt F) S128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__scores_kernel i arg2 harg2 arg3 harg3 arg4 harg4 arg5 harg5) K } := by
  refine ⟨?_, ?_, fun E K => ?run⟩
  case run =>
    simp only [cc0__scores_kernel_eq_skeleton]; unfold cc0__scores_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Fr

end
-- ==== Proof.FrameK.Data0.lean ====
/-
  The first kernel's proof data.  Point by point (t = 16 b + c) the accumulator holds: after a point with c = 0 the
  product of that point's input blocks added to zeros; after any other point that product added to what the point
  before left.  The output block's buffer holds the softmax of the accumulator after a point with c = 15, and is left
  as found (and not written back) at the others.  The region's invariant carries the accumulator at these contents
  from each point to the next; the second kernel's staging buffers and the generator register ride along untouched.
-/
import proofs.«176884_j53326313947744_2_alg».proof.Proof.FrameK.Run0A
import proofs.«176884_j53326313947744_2_alg».proof.Proof.FrameK.Run0B
import proofs.«176884_j53326313947744_2_alg».proof.Proof.FrameK.Run0C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The stores of each case into the accumulator cover it. -/
theorem scoverA (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : cond0_0 i) (hc1 : ¬cond0_1 i) (x0 x1 : Vec F S1x1x128x6400 .f32) (y : S128x128.Idx) :
    ∃ pc ∈ (run0A c i arg2 harg2 arg3 harg3 arg4 harg4 arg5 harg5 hc0 hc1 x0 x1).2.1, y ∈ pc.1.set :=
  View.cover_of_tiledL (run0A c i arg2 harg2 arg3 harg3 arg4 harg4 arg5 harg5 hc0 hc1 x0 x1).2.1 S128x128.size (by sl_kernel_rfl) y
theorem scoverB (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : ¬cond0_1 i) (x0 x1 : Vec F S1x1x128x6400 .f32) (xs : Vec F S128x128 .f32) (y : S128x128.Idx) :
    ∃ pc ∈ (run0B c i arg2 harg2 arg3 harg3 arg4 harg4 arg5 harg5 hc0 hc1 x0 x1 xs).2.1, y ∈ pc.1.set :=
  View.cover_of_tiledL (run0B c i arg2 harg2 arg3 harg3 arg4 harg4 arg5 harg5 hc0 hc1 x0 x1 xs).2.1 S128x128.size (by sl_kernel_rfl) y
theorem scoverC (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i) (x0 x1 : Vec F S1x1x128x6400 .f32) (xs : Vec F S128x128 .f32) (y : S128x128.Idx) :
    ∃ pc ∈ (run0C c i arg2 harg2 arg3 harg3 arg4 harg4 arg5 harg5 hc0 hc1 x0 x1 xs).2.1, y ∈ pc.1.set :=
  View.cover_of_tiledL (run0C c i arg2 harg2 arg3 harg3 arg4 harg4 arg5 harg5 hc0 hc1 x0 x1 xs).2.1 S128x128.size (by sl_kernel_rfl) y
/-- The store of case C into the output block covers it. -/
theorem ocoverC (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i) (x0 x1 : Vec F S1x1x128x6400 .f32) (xs : Vec F S128x128 .f32) (y : S1x128x128.Idx) :
    ∃ pc ∈ (run0C c i arg2 harg2 arg3 harg3 arg4 harg4 arg5 harg5 hc0 hc1 x0 x1 xs).1, y ∈ pc.1.set :=
  View.cover_of_tiledL (run0C c i arg2 harg2 arg3 harg3 arg4 harg4 arg5 harg5 hc0 hc1 x0 x1 xs).1 S1x128x128.size (by sl_kernel_rfl) y

/-- What each case leaves in the accumulator: its stores read back. -/
def accA (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : cond0_0 i) (hc1 : ¬cond0_1 i) (x0 x1 : Vec F S1x1x128x6400 .f32) : Vec F S128x128 .f32 :=
  VS0.read (Elt F) (VS0.writes (Elt F) VS0.junk (run0A c i arg2 harg2 arg3 harg3 arg4 harg4 arg5 harg5 hc0 hc1 x0 x1).2.1)
def accB (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : ¬cond0_1 i) (x0 x1 : Vec F S1x1x128x6400 .f32) (xs : Vec F S128x128 .f32) : Vec F S128x128 .f32 :=
  VS0.read (Elt F) (VS0.writes (Elt F) VS0.junk (run0B c i arg2 harg2 arg3 harg3 arg4 harg4 arg5 harg5 hc0 hc1 x0 x1 xs).2.1)
def accC (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i) (x0 x1 : Vec F S1x1x128x6400 .f32) (xs : Vec F S128x128 .f32) : Vec F S128x128 .f32 :=
  VS0.read (Elt F) (VS0.writes (Elt F) VS0.junk (run0C c i arg2 harg2 arg3 harg3 arg4 harg4 arg5 harg5 hc0 hc1 x0 x1 xs).2.1)
/-- What case C leaves in the output block's buffer. -/
def outC (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i) (x0 x1 : Vec F S1x1x128x6400 .f32) (xs : Vec F S128x128 .f32) : Vec F S1x128x128 .f32 :=
  VO0.read (Elt F) (VO0.writes (Elt F) VO0.junk (run0C c i arg2 harg2 arg3 harg3 arg4 harg4 arg5 harg5 hc0 hc1 x0 x1 xs).1)
/-- The output component at a point that stores nothing into it: a placeholder nothing consults (the block is neither
    written back there nor read at the next point). -/
def noOut : Vec F S1x128x128 .f32 := VO0.read (Elt F) VO0.junk

/-! ## The trajectory -/

/-- What the output block's buffer and the accumulator hold after the body at position n. -/
def traj0 (c : Dev nD) : (n : ℕ) → n < cfg0.N → Vec F S1x128x128 .f32 × Vec F S128x128 .f32
  | 0, hn => (noOut, accA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) accM (Memref.isWhole_whole _) ((hcond0_0 ⟨0, hn⟩).mpr (Nat.zero_mod _)) (fun h => absurd ((hcond0_1 ⟨0, hn⟩).mp h) (by show ¬ 0 % 16 = 15; omega)) (blk0 V c 0 ⟨0, hn⟩) (blk0 V c 1 ⟨0, hn⟩))
  | n + 1, hn =>
    if h0 : (n + 1) % 16 = 0 then
      if h1 : (n + 1) % 16 = 15 then
        False.elim (by omega)
      else
        (noOut, accA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) ((hcond0_0 ⟨n + 1, hn⟩).mpr h0) (fun h => h1 ((hcond0_1 ⟨n + 1, hn⟩).mp h)) (blk0 V c 0 ⟨n + 1, hn⟩) (blk0 V c 1 ⟨n + 1, hn⟩))
    else
      if h1 : (n + 1) % 16 = 15 then
        (outC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((hcond0_0 ⟨n + 1, hn⟩).mp h)) ((hcond0_1 ⟨n + 1, hn⟩).mpr h1) (blk0 V c 0 ⟨n + 1, hn⟩) (blk0 V c 1 ⟨n + 1, hn⟩) (traj0 c n (Nat.lt_of_succ_lt hn)).2,
         accC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((hcond0_0 ⟨n + 1, hn⟩).mp h)) ((hcond0_1 ⟨n + 1, hn⟩).mpr h1) (blk0 V c 0 ⟨n + 1, hn⟩) (blk0 V c 1 ⟨n + 1, hn⟩) (traj0 c n (Nat.lt_of_succ_lt hn)).2)
      else
        (noOut, accB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((hcond0_0 ⟨n + 1, hn⟩).mp h)) (fun h => h1 ((hcond0_1 ⟨n + 1, hn⟩).mp h)) (blk0 V c 0 ⟨n + 1, hn⟩) (blk0 V c 1 ⟨n + 1, hn⟩) (traj0 c n (Nat.lt_of_succ_lt hn)).2)

theorem traj0_A (c : Dev nD) (t : Fin cfg0.N) (h0 : t.val % 16 = 0) (h1 : ¬t.val % 16 = 15) :
    traj0 V c t.val t.isLt = (noOut, accA c (grid0.coords t) (ms0_0 t) (hs0_0 t) (ms0_1 t) (hs0_1 t) (ms0_2 t) (hs0_2 t) accM (Memref.isWhole_whole _) ((hcond0_0 t).mpr h0) (fun h => h1 ((hcond0_1 t).mp h)) (blk0 V c 0 t) (blk0 V c 1 t)) := by
  obtain ⟨n, hn⟩ := t
  cases n with
  | zero => exact rfl
  | succ n => exact (dif_pos h0).trans ((dif_neg h1).trans rfl)

theorem traj0_B (c : Dev nD) (t : Fin cfg0.N) (h0 : ¬t.val % 16 = 0) (h1 : ¬t.val % 16 = 15) :
    traj0 V c t.val t.isLt = (noOut, accB c (grid0.coords t) (ms0_0 t) (hs0_0 t) (ms0_1 t) (hs0_1 t) (ms0_2 t) (hs0_2 t) accM (Memref.isWhole_whole _) (fun h => h0 ((hcond0_0 t).mp h)) (fun h => h1 ((hcond0_1 t).mp h)) (blk0 V c 0 t) (blk0 V c 1 t) (traj0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem traj0_C (c : Dev nD) (t : Fin cfg0.N) (h0 : ¬t.val % 16 = 0) (h1 : t.val % 16 = 15) :
    traj0 V c t.val t.isLt = (outC c (grid0.coords t) (ms0_0 t) (hs0_0 t) (ms0_1 t) (hs0_1 t) (ms0_2 t) (hs0_2 t) accM (Memref.isWhole_whole _) (fun h => h0 ((hcond0_0 t).mp h)) ((hcond0_1 t).mpr h1) (blk0 V c 0 t) (blk0 V c 1 t) (traj0 V c (t.val - 1) (Nat.lt_of_le_of_lt (Nat.sub_le _ _) t.isLt)).2,
      accC c (grid0.coords t) (ms0_0 t) (hs0_0 t) (ms0_1 t) (hs0_1 t) (ms0_2 t) (hs0_2 t) accM (Memref.isWhole_whole _) (fun h => h0 ((hcond0_0 t).mp h)) ((hcond0_1 t).mpr h1) (blk0 V c 0 t) (blk0 V c 1 t) (traj0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point, what a kernel is entered with; afterwards the accumulator at what the point before left,
    the second kernel's staging buffers at anything and the generator register at some state. -/
def Phi0 (c : Dev nD) : (n : ℕ) → n ≤ cfg0.N → sProp 𝕄
  | 0, _ => Pipeline.ΦA spec0 c
  | n + 1, hn => iprop(iprop(owns (c : Thread nD τ) accM fullShare ((traj0 V c n hn).2) ∗ others0 (F := F) c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(owns (c : Thread nD τ) accM fullShare ((traj0 V c n hn).2) ∗ others0 (F := F) c) ∗ (∃ r, prngReg c r)) := rfl
theorem Phi0_pos (c : Dev nD) (n : ℕ) (h : n ≤ cfg0.N) (hz : n ≠ 0) :
    Phi0 V c n h = iprop(iprop(owns (c : Thread nD τ) accM fullShare ((traj0 V c (n - 1) (by omega)).2) ∗ others0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => (traj0 V c t.val t.isLt).1
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = (traj0 V c t.val t.isLt).1 := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the decided conditions say which case the point is
    in; the invariant hands the body the accumulator at what the point before left (at anything at the first point) and
    takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 16 = 15
  · have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [traj0_C V c t h0 h1]
    unfold outC accC; (try dsimp only)
    rw [Phi0_castSucc V c t, Phi0_pos V c _ _ hz]
    iintro ⟨⟨⟨HS, Hoth⟩, Hg⟩, Ho, ⟨%d0, H0⟩, ⟨%d1, H1⟩, ⟨%d2, H2⟩⟩
    iapply ((run0C c (grid0.coords t) (ms0_0 t) (hs0_0 t) (ms0_1 t) (hs0_1 t) (ms0_2 t) (hs0_2 t) accM (Memref.isWhole_whole _) (fun h => h0 ((hcond0_0 t).mp h)) ((hcond0_1 t).mpr h1) (blk0 V c 0 t) (blk0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (scoverC _ _ _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (ocoverC _ _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 16 = 0
    · rw [traj0_A V c t h0 h1]
      unfold accA; (try dsimp only)
      by_cases hz : t.val = 0
      · rw [Phi0_castSucc V c t, Phi0_zero V c _ _ hz, PhiA0_eq]
        iintro ⟨⟨⟨HS, Hoth⟩, Hg⟩, Ho, ⟨%d0, H0⟩, ⟨%d1, H1⟩, ⟨%d2, H2⟩⟩
        iapply ((run0A c (grid0.coords t) (ms0_0 t) (hs0_0 t) (ms0_1 t) (hs0_1 t) (ms0_2 t) (hs0_2 t) accM (Memref.isWhole_whole _) ((hcond0_0 t).mpr h0) (fun h => h1 ((hcond0_1 t).mp h)) (blk0 V c 0 t) (blk0 V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (scoverA _ _ _ _ _ _ _ _ _ _ _ _ _ _)
            iexact Hoth
          iexact Hg
        isplitl [Ho]; · iexact Ho
        isplitl [H0]; · iexact H0
        isplitl [H1]; · iexact H1
        iexists _; iexact H2
      · rw [Phi0_castSucc V c t, Phi0_pos V c _ _ hz]
        iintro ⟨⟨⟨HS, Hoth⟩, Hg⟩, Ho, ⟨%d0, H0⟩, ⟨%d1, H1⟩, ⟨%d2, H2⟩⟩
        iapply ((run0A c (grid0.coords t) (ms0_0 t) (hs0_0 t) (ms0_1 t) (hs0_1 t) (ms0_2 t) (hs0_2 t) accM (Memref.isWhole_whole _) ((hcond0_0 t).mpr h0) (fun h => h1 ((hcond0_1 t).mp h)) (blk0 V c 0 t) (blk0 V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (scoverA _ _ _ _ _ _ _ _ _ _ _ _ _ _)
            iexact Hoth
          iexact Hg
        isplitl [Ho]; · iexact Ho
        isplitl [H0]; · iexact H0
        isplitl [H1]; · iexact H1
        iexists _; iexact H2
    · have hz : t.val ≠ 0 := fun e => h0 (by rw [e])
      rw [traj0_B V c t h0 h1]
      unfold accB; (try dsimp only)
      rw [Phi0_castSucc V c t, Phi0_pos V c _ _ hz]
      iintro ⟨⟨⟨HS, Hoth⟩, Hg⟩, Ho, ⟨%d0, H0⟩, ⟨%d1, H1⟩, ⟨%d2, H2⟩⟩
      iapply ((run0B c (grid0.coords t) (ms0_0 t) (hs0_0 t) (ms0_1 t) (hs0_1 t) (ms0_2 t) (hs0_2 t) accM (Memref.isWhole_whole _) (fun h => h0 ((hcond0_0 t).mp h)) (fun h => h1 ((hcond0_1 t).mp h)) (blk0 V c 0 t) (blk0 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scoverB _ _ _ _ _ _ _ _ _ _ _ _ _ _ _)
          iexact Hoth
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What a kernel is entered with is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives that back: the accumulator's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = Phi0 V c (Fin.last cfg0.N).val (Nat.le_of_lt_succ (Fin.last cfg0.N).isLt) from rfl, Phi0_pos V c _ _ hne, PhiA0_eq]
  iintro ⟨⟨HS, Hoth⟩, Hg⟩
  isplitl [HS Hoth]
  · isplitl [HS]
    · iexists _; iexact HS
    iexact Hoth
  iexact Hg

end Cert.Kernel.Fr

end
-- ==== Proof.FrameK.Run1.lean ====
/-
  The second kernel's body run whole: the product of its two input blocks is stored into the output block.
  On whole staging memrefs, the inputs' at their contents and the output's at anything, the body runs to the
  continuation holding the inputs as they were and the output's buffer with its store written.
-/
import proofs.«176884_j53326313947744_2_alg».proof.Proof.FrameK.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def run1 (c : Dev nD) (i : grid1.Coords) (arg2 : Memref sig .tc .vmem S1x128x128 .f32) (harg2 : arg2.IsWhole) (arg3 : Memref sig .tc .vmem S1x1x128x6400 .f32) (harg3 : arg3.IsWhole) (arg4 : Memref sig .tc .vmem S1x1x128x6400 .f32) (harg4 : arg4.IsWhole)
    (x0 : Vec F S1x128x128 .f32) (x1 : Vec F S1x1x128x6400 .f32) :
    { L2 : List (View.Piece (Elt F) S1x1x128x6400 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__outv_kernel i arg2 harg2 arg3 harg3 arg4 harg4) K } := by
  refine ⟨?_, fun E K => ?run⟩
  case run =>
    simp only [cc1__outv_kernel_eq_skeleton]; unfold cc1__outv_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Fr

end
-- ==== Proof.FrameK.Data1.lean ====
/-
  The second kernel's proof data.  At every point the inputs' buffers hold their blocks and the output block's buffer
  ends with the body's store; the invariant is what a kernel is entered with (every other scoped buffer at anything, the
  generator register at some state), untouched.
-/
import proofs.«176884_j53326313947744_2_alg».proof.Proof.FrameK.Run1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's store covers the output block. -/
theorem ocover1 (c : Dev nD) (i : grid1.Coords) (arg2 : Memref sig .tc .vmem S1x128x128 .f32) (harg2 : arg2.IsWhole) (arg3 : Memref sig .tc .vmem S1x1x128x6400 .f32) (harg3 : arg3.IsWhole) (arg4 : Memref sig .tc .vmem S1x1x128x6400 .f32) (harg4 : arg4.IsWhole) (x0 : Vec F S1x128x128 .f32) (x1 : Vec F S1x1x128x6400 .f32) (y : S1x1x128x6400.Idx) :
    ∃ pc ∈ (run1 c i arg2 harg2 arg3 harg3 arg4 harg4 x0 x1).1, y ∈ pc.1.set :=
  View.cover_of_tiledL (run1 c i arg2 harg2 arg3 harg3 arg4 harg4 x0 x1).1 S1x1x128x6400.size (by sl_kernel_rfl) y

/-- What the body leaves in the output block's buffer: its store read back. -/
def out1 (c : Dev nD) (i : grid1.Coords) (arg2 : Memref sig .tc .vmem S1x128x128 .f32) (harg2 : arg2.IsWhole) (arg3 : Memref sig .tc .vmem S1x1x128x6400 .f32) (harg3 : arg3.IsWhole) (arg4 : Memref sig .tc .vmem S1x1x128x6400 .f32) (harg4 : arg4.IsWhole) (x0 : Vec F S1x128x128 .f32) (x1 : Vec F S1x1x128x6400 .f32) : Vec F S1x1x128x6400 .f32 :=
  VO1.read (Elt F) (VO1.writes (Elt F) VO1.junk (run1 c i arg2 harg2 arg3 harg3 arg4 harg4 x0 x1).1)

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => out1 c (grid1.coords t) (ms1_0 t) (hs1_0 t) (ms1_1 t) (hs1_1 t) (ms1_2 t) (hs1_2 t) (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = out1 c (grid1.coords t) (ms1_0 t) (hs1_0 t) (ms1_1 t) (hs1_1 t) (ms1_2 t) (hs1_2 t) (blk1 V c 0 t) (blk1 V c 1 t) := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold out1
  iintro ⟨HΦ, Ho, ⟨%d0, H0⟩, ⟨%d1, H1⟩, ⟨%d2, H2⟩⟩
  iapply ((run1 c (grid1.coords t) (ms1_0 t) (hs1_0 t) (ms1_1 t) (hs1_1 t) (ms1_2 t) (hs1_2 t) (blk1 V c 0 t) (blk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (ocover1 _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrameK.Run.lean ====
/-
  The whole run.  The program is: three reshapes of the arguments on the host, the first kernel, the second kernel,
  one reshape of the result on the host.  The contents of the core's buffers at each boundary are a fold from the
  launch memory: a host stretch applies its operations; a kernel leaves each of its windows' arrays at what its
  write-backs leave and every other buffer as entered.  Each kernel is entered from every unscoped buffer held at the
  boundary's contents, with the generator register at some state and nothing owed, and left the same way.  The launch
  then says: every weakly fair execution terminates, and the final memory holds every unscoped buffer at the last
  boundary's contents.  The arguments are written by no host operation and by no kernel, so they end as launched.
-/
import proofs.«176884_j53326313947744_2_alg».proof.Proof.FrameK.Data0
import proofs.«176884_j53326313947744_2_alg».proof.Proof.FrameK.Data1
import proofs.«176884_j53326313947744_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the three reshapes: the first kernel's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first kernel: the second kernel's entry. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second kernel. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last reshape: the end. -/
abbrev W4 : Dev nD → Valuation τ sig (Elt F) := fun c => StableHlo.after hostOps2 (W3 m c)

/-- An argument's buffer is written by no host operation and is no array of either kernel: it ends as launched. -/
theorem W4_arg (c : Dev nD) (r : Ref sig .tc) (h0 : r ∉ hostOps0_W) (h2 : r ∉ hostOps2_W)
    (hs0 : ∀ w, Pipeline.arrRef spec0 w ≠ r) (hs1 : ∀ w, Pipeline.arrRef spec1 w ≠ r) :
    W4 m c (Proc.devRef .tc r) = m ((c : Thread nD τ).loc r) :=
  calc W4 m c (Proc.devRef .tc r)
    _ = W3 m c (Proc.devRef .tc r) := StableHlo.after_of_writes_sub hostOps2 _ hostOps2_writes h2
    _ = W2 m c (Proc.devRef .tc r) := W3_of_ne m c r hs1
    _ = W1 m c (Proc.devRef .tc r) := W2_of_ne m c r hs0
    _ = W0 m c (Proc.devRef .tc r) := StableHlo.after_of_writes_sub hostOps0 _ hostOps0_writes h0
    _ = m ((c : Thread nD τ).loc r) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The kernels as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- Every weakly fair execution terminates, nothing faulting, and the final memory holds every unscoped buffer at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every execution terminates, nothing faulting, and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide))⟩) (run_all m ρ)

end Cert.Kernel.Fr

end
-- ==== Proof.FrameKI.Base.lean ====
/-
  What the two kernels' runs share.  The program runs two kernels one after the other over a grid of 2 x 16 points
  (b, c), point number t = 16 b + c.

  The first kernel keeps a 128 x 128 accumulator in a scratch buffer: at c = 0 it fills it with zeros, at every point
  it adds the product of the point's two input blocks, and at c = 15 it stores the softmax of the accumulator into its
  output block, which the pipeline writes back only there.  So its body has three cases, by which of the two
  conditions  c = 0  and  c = 15  hold (both cannot), decided here over the 32 points:  t % 16 = 0  and  t % 16 = 15.

  The second kernel has no condition: at every point it multiplies its first input block, refetched only when b
  changes, by its second, and stores the product, written back at every point.

  Everything is stated at a parameter V, the contents of the core's buffers when the kernel is entered.
-/
import proofs.«176884_j53326313947744_2_alg».proof.Proof.Gen.KernelIdeal.Launch
import proofs.«176884_j53326313947744_2_alg».proof.Proof.Gen.KernelIdeal.Skeleton
import proofs.«176884_j53326313947744_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The first kernel -/

/-- Window w's block at point t, read off its array as the kernel finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data over V whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The first condition of the body, c = 0, as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second condition, c = 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-- The inputs are never idle; the output is idle, and not written back, exactly where c is not 15. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- Each window's current staging memref at point t, as the pipeline passes it to the body, and that it is a whole buffer. -/
abbrev ms0_0 (t : Fin cfg0.N) : Memref sig .tc .vmem S1x1x128x6400 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x128x6400 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev accM : Memref sig .tc .vmem S128x128 .f32 := Memref.whole cc0_scratch0
/-- The views through which the output block's and the accumulator's contents are stated. -/
abbrev VO0 : View sig .tc .vmem S1x128x128 .f32 := (Memref.whole cc0_stg2_0 : Memref sig .tc .vmem S1x128x128 .f32).view
abbrev VS0 : View sig .tc .vmem S128x128 .f32 := accM.view

/-- The scoped buffers the first kernel never touches (the second kernel's staging buffers), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The invariant a kernel is entered with (every scoped buffer no window stages at some contents, the generator
    register at some state), with the accumulator named. -/
theorem PhiA0_eq (c : Dev nD) :
    (Pipeline.ΦA spec0 c : sProp 𝕄)
      = iprop(iprop((∃ d, owns (c : Thread nD τ) accM fullShare d) ∗ others0 (F := F) c) ∗ (∃ r, prngReg c r)) := by
  unfold Pipeline.ΦA others0; rw [scopedRest0_eq]; simp only [accM, owns_whole]; rfl

/-! ## The second kernel -/

/-- Window w's block at point t, read off its array as the kernel finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

abbrev ms1_0 (t : Fin cfg1.N) : Memref sig .tc .vmem S1x128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x128x6400 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x128x6400 .f32 := win1_2.stage (cfg1.slots t 2)
abbrev hs1_2 (t : Fin cfg1.N) : (ms1_2 t).IsWhole := hstage1_2 ((cfg1.slots t 2).cast nbuf1_2)
abbrev VO1 : View sig .tc .vmem S1x1x128x6400 .f32 := (Memref.whole cc1_stg2_0 : Memref sig .tc .vmem S1x1x128x6400 .f32).view

end Cert.KernelIdeal.Fr

end
-- ==== Proof.FrameKI.Run0A.lean ====
/-
  The first kernel's body run whole in case A: c = 0 and not c = 15 — the accumulator is zeroed, then the product of the two input blocks is added; the output block is left as found.
  On whole staging memrefs, the inputs' at their contents, the body runs to the continuation holding the inputs as they
  were and each buffer it stored into with its stores written; the list of stores each buffer ends with is found by the
  run itself.
-/
import proofs.«176884_j53326313947744_2_alg».proof.Proof.FrameKI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Case A: the accumulator may hold anything on entry; the output's buffer is handed back untouched. -/
noncomputable def run0A (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : cond0_0 i) (hc1 : ¬cond0_1 i)
    (x0 x1 : Vec F S1x1x128x6400 .f32) :
    Σ' (L2 : List (View.Piece (Elt F) S1x128x128 .f32)), { LS : List (View.Piece (Elt F) S128x128 .f32) //
      ∀ (xi2 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__scores_kernel i arg2 harg2 arg3 harg3 arg4 harg4 arg5 harg5) K } := by
  refine ⟨[], ?_, fun xi2 E K => ?run⟩
  case run =>
    simp only [cc0__scores_kernel_eq_skeleton]; unfold cc0__scores_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Fr

end
-- ==== Proof.FrameKI.Run0B.lean ====
/-
  The first kernel's body run whole in case B: neither c = 0 nor c = 15 — the product of the two input blocks is added to the accumulator; the output block is left as found.
  On whole staging memrefs, the inputs' at their contents, the body runs to the continuation holding the inputs as they
  were and each buffer it stored into with its stores written; the list of stores each buffer ends with is found by the
  run itself.
-/
import proofs.«176884_j53326313947744_2_alg».proof.Proof.FrameKI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Case B: the accumulator holds xs on entry; the output's buffer is handed back untouched. -/
noncomputable def run0B (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : ¬cond0_1 i)
    (x0 x1 : Vec F S1x1x128x6400 .f32) (xs : Vec F S128x128 .f32) :
    Σ' (L2 : List (View.Piece (Elt F) S1x128x128 .f32)), { LS : List (View.Piece (Elt F) S128x128 .f32) //
      ∀ (xi2 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__scores_kernel i arg2 harg2 arg3 harg3 arg4 harg4 arg5 harg5) K } := by
  refine ⟨[], ?_, fun xi2 E K => ?run⟩
  case run =>
    simp only [cc0__scores_kernel_eq_skeleton]; unfold cc0__scores_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Fr

end
-- ==== Proof.FrameKI.Run0C.lean ====
/-
  The first kernel's body run whole in case C: c = 15 and not c = 0 — the product of the two input blocks is added to the accumulator, and the softmax of the accumulator is stored into the output block.
  On whole staging memrefs, the inputs' at their contents, the body runs to the continuation holding the inputs as they
  were and each buffer it stored into with its stores written; the list of stores each buffer ends with is found by the
  run itself.
-/
import proofs.«176884_j53326313947744_2_alg».proof.Proof.FrameKI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Case C: the accumulator holds xs on entry; the output's buffer may hold anything and ends with its store written. -/
noncomputable def run0C (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i)
    (x0 x1 : Vec F S1x1x128x6400 .f32) (xs : Vec F S128x128 .f32) :
    Σ' (L2 : List (View.Piece (Elt F) S1x128x128 .f32)), { LS : List (View.Piece (Elt F) S128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__scores_kernel i arg2 harg2 arg3 harg3 arg4 harg4 arg5 harg5) K } := by
  refine ⟨?_, ?_, fun E K => ?run⟩
  case run =>
    simp only [cc0__scores_kernel_eq_skeleton]; unfold cc0__scores_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Fr

end
-- ==== Proof.FrameKI.Data0.lean ====
/-
  The first kernel's proof data.  Point by point (t = 16 b + c) the accumulator holds: after a point with c = 0 the
  product of that point's input blocks added to zeros; after any other point that product added to what the point
  before left.  The output block's buffer holds the softmax of the accumulator after a point with c = 15, and is left
  as found (and not written back) at the others.  The region's invariant carries the accumulator at these contents
  from each point to the next; the second kernel's staging buffers and the generator register ride along untouched.
-/
import proofs.«176884_j53326313947744_2_alg».proof.Proof.FrameKI.Run0A
import proofs.«176884_j53326313947744_2_alg».proof.Proof.FrameKI.Run0B
import proofs.«176884_j53326313947744_2_alg».proof.Proof.FrameKI.Run0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The stores of each case into the accumulator cover it. -/
theorem scoverA (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : cond0_0 i) (hc1 : ¬cond0_1 i) (x0 x1 : Vec F S1x1x128x6400 .f32) (y : S128x128.Idx) :
    ∃ pc ∈ (run0A c i arg2 harg2 arg3 harg3 arg4 harg4 arg5 harg5 hc0 hc1 x0 x1).2.1, y ∈ pc.1.set :=
  View.cover_of_tiledL (run0A c i arg2 harg2 arg3 harg3 arg4 harg4 arg5 harg5 hc0 hc1 x0 x1).2.1 S128x128.size (by sl_kernel_rfl) y
theorem scoverB (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : ¬cond0_1 i) (x0 x1 : Vec F S1x1x128x6400 .f32) (xs : Vec F S128x128 .f32) (y : S128x128.Idx) :
    ∃ pc ∈ (run0B c i arg2 harg2 arg3 harg3 arg4 harg4 arg5 harg5 hc0 hc1 x0 x1 xs).2.1, y ∈ pc.1.set :=
  View.cover_of_tiledL (run0B c i arg2 harg2 arg3 harg3 arg4 harg4 arg5 harg5 hc0 hc1 x0 x1 xs).2.1 S128x128.size (by sl_kernel_rfl) y
theorem scoverC (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i) (x0 x1 : Vec F S1x1x128x6400 .f32) (xs : Vec F S128x128 .f32) (y : S128x128.Idx) :
    ∃ pc ∈ (run0C c i arg2 harg2 arg3 harg3 arg4 harg4 arg5 harg5 hc0 hc1 x0 x1 xs).2.1, y ∈ pc.1.set :=
  View.cover_of_tiledL (run0C c i arg2 harg2 arg3 harg3 arg4 harg4 arg5 harg5 hc0 hc1 x0 x1 xs).2.1 S128x128.size (by sl_kernel_rfl) y
/-- The store of case C into the output block covers it. -/
theorem ocoverC (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i) (x0 x1 : Vec F S1x1x128x6400 .f32) (xs : Vec F S128x128 .f32) (y : S1x128x128.Idx) :
    ∃ pc ∈ (run0C c i arg2 harg2 arg3 harg3 arg4 harg4 arg5 harg5 hc0 hc1 x0 x1 xs).1, y ∈ pc.1.set :=
  View.cover_of_tiledL (run0C c i arg2 harg2 arg3 harg3 arg4 harg4 arg5 harg5 hc0 hc1 x0 x1 xs).1 S1x128x128.size (by sl_kernel_rfl) y

/-- What each case leaves in the accumulator: its stores read back. -/
def accA (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : cond0_0 i) (hc1 : ¬cond0_1 i) (x0 x1 : Vec F S1x1x128x6400 .f32) : Vec F S128x128 .f32 :=
  VS0.read (Elt F) (VS0.writes (Elt F) VS0.junk (run0A c i arg2 harg2 arg3 harg3 arg4 harg4 arg5 harg5 hc0 hc1 x0 x1).2.1)
def accB (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : ¬cond0_1 i) (x0 x1 : Vec F S1x1x128x6400 .f32) (xs : Vec F S128x128 .f32) : Vec F S128x128 .f32 :=
  VS0.read (Elt F) (VS0.writes (Elt F) VS0.junk (run0B c i arg2 harg2 arg3 harg3 arg4 harg4 arg5 harg5 hc0 hc1 x0 x1 xs).2.1)
def accC (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i) (x0 x1 : Vec F S1x1x128x6400 .f32) (xs : Vec F S128x128 .f32) : Vec F S128x128 .f32 :=
  VS0.read (Elt F) (VS0.writes (Elt F) VS0.junk (run0C c i arg2 harg2 arg3 harg3 arg4 harg4 arg5 harg5 hc0 hc1 x0 x1 xs).2.1)
/-- What case C leaves in the output block's buffer. -/
def outC (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i) (x0 x1 : Vec F S1x1x128x6400 .f32) (xs : Vec F S128x128 .f32) : Vec F S1x128x128 .f32 :=
  VO0.read (Elt F) (VO0.writes (Elt F) VO0.junk (run0C c i arg2 harg2 arg3 harg3 arg4 harg4 arg5 harg5 hc0 hc1 x0 x1 xs).1)
/-- The output component at a point that stores nothing into it: a placeholder nothing consults (the block is neither
    written back there nor read at the next point). -/
def noOut : Vec F S1x128x128 .f32 := VO0.read (Elt F) VO0.junk

/-! ## The trajectory -/

/-- What the output block's buffer and the accumulator hold after the body at position n. -/
def traj0 (c : Dev nD) : (n : ℕ) → n < cfg0.N → Vec F S1x128x128 .f32 × Vec F S128x128 .f32
  | 0, hn => (noOut, accA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) accM (Memref.isWhole_whole _) ((hcond0_0 ⟨0, hn⟩).mpr (Nat.zero_mod _)) (fun h => absurd ((hcond0_1 ⟨0, hn⟩).mp h) (by show ¬ 0 % 16 = 15; omega)) (blk0 V c 0 ⟨0, hn⟩) (blk0 V c 1 ⟨0, hn⟩))
  | n + 1, hn =>
    if h0 : (n + 1) % 16 = 0 then
      if h1 : (n + 1) % 16 = 15 then
        False.elim (by omega)
      else
        (noOut, accA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) ((hcond0_0 ⟨n + 1, hn⟩).mpr h0) (fun h => h1 ((hcond0_1 ⟨n + 1, hn⟩).mp h)) (blk0 V c 0 ⟨n + 1, hn⟩) (blk0 V c 1 ⟨n + 1, hn⟩))
    else
      if h1 : (n + 1) % 16 = 15 then
        (outC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((hcond0_0 ⟨n + 1, hn⟩).mp h)) ((hcond0_1 ⟨n + 1, hn⟩).mpr h1) (blk0 V c 0 ⟨n + 1, hn⟩) (blk0 V c 1 ⟨n + 1, hn⟩) (traj0 c n (Nat.lt_of_succ_lt hn)).2,
         accC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((hcond0_0 ⟨n + 1, hn⟩).mp h)) ((hcond0_1 ⟨n + 1, hn⟩).mpr h1) (blk0 V c 0 ⟨n + 1, hn⟩) (blk0 V c 1 ⟨n + 1, hn⟩) (traj0 c n (Nat.lt_of_succ_lt hn)).2)
      else
        (noOut, accB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((hcond0_0 ⟨n + 1, hn⟩).mp h)) (fun h => h1 ((hcond0_1 ⟨n + 1, hn⟩).mp h)) (blk0 V c 0 ⟨n + 1, hn⟩) (blk0 V c 1 ⟨n + 1, hn⟩) (traj0 c n (Nat.lt_of_succ_lt hn)).2)

theorem traj0_A (c : Dev nD) (t : Fin cfg0.N) (h0 : t.val % 16 = 0) (h1 : ¬t.val % 16 = 15) :
    traj0 V c t.val t.isLt = (noOut, accA c (grid0.coords t) (ms0_0 t) (hs0_0 t) (ms0_1 t) (hs0_1 t) (ms0_2 t) (hs0_2 t) accM (Memref.isWhole_whole _) ((hcond0_0 t).mpr h0) (fun h => h1 ((hcond0_1 t).mp h)) (blk0 V c 0 t) (blk0 V c 1 t)) := by
  obtain ⟨n, hn⟩ := t
  cases n with
  | zero => exact rfl
  | succ n => exact (dif_pos h0).trans ((dif_neg h1).trans rfl)

theorem traj0_B (c : Dev nD) (t : Fin cfg0.N) (h0 : ¬t.val % 16 = 0) (h1 : ¬t.val % 16 = 15) :
    traj0 V c t.val t.isLt = (noOut, accB c (grid0.coords t) (ms0_0 t) (hs0_0 t) (ms0_1 t) (hs0_1 t) (ms0_2 t) (hs0_2 t) accM (Memref.isWhole_whole _) (fun h => h0 ((hcond0_0 t).mp h)) (fun h => h1 ((hcond0_1 t).mp h)) (blk0 V c 0 t) (blk0 V c 1 t) (traj0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem traj0_C (c : Dev nD) (t : Fin cfg0.N) (h0 : ¬t.val % 16 = 0) (h1 : t.val % 16 = 15) :
    traj0 V c t.val t.isLt = (outC c (grid0.coords t) (ms0_0 t) (hs0_0 t) (ms0_1 t) (hs0_1 t) (ms0_2 t) (hs0_2 t) accM (Memref.isWhole_whole _) (fun h => h0 ((hcond0_0 t).mp h)) ((hcond0_1 t).mpr h1) (blk0 V c 0 t) (blk0 V c 1 t) (traj0 V c (t.val - 1) (Nat.lt_of_le_of_lt (Nat.sub_le _ _) t.isLt)).2,
      accC c (grid0.coords t) (ms0_0 t) (hs0_0 t) (ms0_1 t) (hs0_1 t) (ms0_2 t) (hs0_2 t) accM (Memref.isWhole_whole _) (fun h => h0 ((hcond0_0 t).mp h)) ((hcond0_1 t).mpr h1) (blk0 V c 0 t) (blk0 V c 1 t) (traj0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point, what a kernel is entered with; afterwards the accumulator at what the point before left,
    the second kernel's staging buffers at anything and the generator register at some state. -/
def Phi0 (c : Dev nD) : (n : ℕ) → n ≤ cfg0.N → sProp 𝕄
  | 0, _ => Pipeline.ΦA spec0 c
  | n + 1, hn => iprop(iprop(owns (c : Thread nD τ) accM fullShare ((traj0 V c n hn).2) ∗ others0 (F := F) c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(owns (c : Thread nD τ) accM fullShare ((traj0 V c n hn).2) ∗ others0 (F := F) c) ∗ (∃ r, prngReg c r)) := rfl
theorem Phi0_pos (c : Dev nD) (n : ℕ) (h : n ≤ cfg0.N) (hz : n ≠ 0) :
    Phi0 V c n h = iprop(iprop(owns (c : Thread nD τ) accM fullShare ((traj0 V c (n - 1) (by omega)).2) ∗ others0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => (traj0 V c t.val t.isLt).1
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = (traj0 V c t.val t.isLt).1 := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the decided conditions say which case the point is
    in; the invariant hands the body the accumulator at what the point before left (at anything at the first point) and
    takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 16 = 15
  · have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [traj0_C V c t h0 h1]
    unfold outC accC; (try dsimp only)
    rw [Phi0_castSucc V c t, Phi0_pos V c _ _ hz]
    iintro ⟨⟨⟨HS, Hoth⟩, Hg⟩, Ho, ⟨%d0, H0⟩, ⟨%d1, H1⟩, ⟨%d2, H2⟩⟩
    iapply ((run0C c (grid0.coords t) (ms0_0 t) (hs0_0 t) (ms0_1 t) (hs0_1 t) (ms0_2 t) (hs0_2 t) accM (Memref.isWhole_whole _) (fun h => h0 ((hcond0_0 t).mp h)) ((hcond0_1 t).mpr h1) (blk0 V c 0 t) (blk0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (scoverC _ _ _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (ocoverC _ _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 16 = 0
    · rw [traj0_A V c t h0 h1]
      unfold accA; (try dsimp only)
      by_cases hz : t.val = 0
      · rw [Phi0_castSucc V c t, Phi0_zero V c _ _ hz, PhiA0_eq]
        iintro ⟨⟨⟨HS, Hoth⟩, Hg⟩, Ho, ⟨%d0, H0⟩, ⟨%d1, H1⟩, ⟨%d2, H2⟩⟩
        iapply ((run0A c (grid0.coords t) (ms0_0 t) (hs0_0 t) (ms0_1 t) (hs0_1 t) (ms0_2 t) (hs0_2 t) accM (Memref.isWhole_whole _) ((hcond0_0 t).mpr h0) (fun h => h1 ((hcond0_1 t).mp h)) (blk0 V c 0 t) (blk0 V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (scoverA _ _ _ _ _ _ _ _ _ _ _ _ _ _)
            iexact Hoth
          iexact Hg
        isplitl [Ho]; · iexact Ho
        isplitl [H0]; · iexact H0
        isplitl [H1]; · iexact H1
        iexists _; iexact H2
      · rw [Phi0_castSucc V c t, Phi0_pos V c _ _ hz]
        iintro ⟨⟨⟨HS, Hoth⟩, Hg⟩, Ho, ⟨%d0, H0⟩, ⟨%d1, H1⟩, ⟨%d2, H2⟩⟩
        iapply ((run0A c (grid0.coords t) (ms0_0 t) (hs0_0 t) (ms0_1 t) (hs0_1 t) (ms0_2 t) (hs0_2 t) accM (Memref.isWhole_whole _) ((hcond0_0 t).mpr h0) (fun h => h1 ((hcond0_1 t).mp h)) (blk0 V c 0 t) (blk0 V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (scoverA _ _ _ _ _ _ _ _ _ _ _ _ _ _)
            iexact Hoth
          iexact Hg
        isplitl [Ho]; · iexact Ho
        isplitl [H0]; · iexact H0
        isplitl [H1]; · iexact H1
        iexists _; iexact H2
    · have hz : t.val ≠ 0 := fun e => h0 (by rw [e])
      rw [traj0_B V c t h0 h1]
      unfold accB; (try dsimp only)
      rw [Phi0_castSucc V c t, Phi0_pos V c _ _ hz]
      iintro ⟨⟨⟨HS, Hoth⟩, Hg⟩, Ho, ⟨%d0, H0⟩, ⟨%d1, H1⟩, ⟨%d2, H2⟩⟩
      iapply ((run0B c (grid0.coords t) (ms0_0 t) (hs0_0 t) (ms0_1 t) (hs0_1 t) (ms0_2 t) (hs0_2 t) accM (Memref.isWhole_whole _) (fun h => h0 ((hcond0_0 t).mp h)) (fun h => h1 ((hcond0_1 t).mp h)) (blk0 V c 0 t) (blk0 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scoverB _ _ _ _ _ _ _ _ _ _ _ _ _ _ _)
          iexact Hoth
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What a kernel is entered with is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives that back: the accumulator's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = Phi0 V c (Fin.last cfg0.N).val (Nat.le_of_lt_succ (Fin.last cfg0.N).isLt) from rfl, Phi0_pos V c _ _ hne, PhiA0_eq]
  iintro ⟨⟨HS, Hoth⟩, Hg⟩
  isplitl [HS Hoth]
  · isplitl [HS]
    · iexists _; iexact HS
    iexact Hoth
  iexact Hg

end Cert.KernelIdeal.Fr

end
-- ==== Proof.FrameKI.Run1.lean ====
/-
  The second kernel's body run whole: the product of its two input blocks is stored into the output block.
  On whole staging memrefs, the inputs' at their contents and the output's at anything, the body runs to the
  continuation holding the inputs as they were and the output's buffer with its store written.
-/
import proofs.«176884_j53326313947744_2_alg».proof.Proof.FrameKI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def run1 (c : Dev nD) (i : grid1.Coords) (arg2 : Memref sig .tc .vmem S1x128x128 .f32) (harg2 : arg2.IsWhole) (arg3 : Memref sig .tc .vmem S1x1x128x6400 .f32) (harg3 : arg3.IsWhole) (arg4 : Memref sig .tc .vmem S1x1x128x6400 .f32) (harg4 : arg4.IsWhole)
    (x0 : Vec F S1x128x128 .f32) (x1 : Vec F S1x1x128x6400 .f32) :
    { L2 : List (View.Piece (Elt F) S1x1x128x6400 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__outv_kernel i arg2 harg2 arg3 harg3 arg4 harg4) K } := by
  refine ⟨?_, fun E K => ?run⟩
  case run =>
    simp only [cc1__outv_kernel_eq_skeleton]; unfold cc1__outv_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Fr

end
-- ==== Proof.FrameKI.Data1.lean ====
/-
  The second kernel's proof data.  At every point the inputs' buffers hold their blocks and the output block's buffer
  ends with the body's store; the invariant is what a kernel is entered with (every other scoped buffer at anything, the
  generator register at some state), untouched.
-/
import proofs.«176884_j53326313947744_2_alg».proof.Proof.FrameKI.Run1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's store covers the output block. -/
theorem ocover1 (c : Dev nD) (i : grid1.Coords) (arg2 : Memref sig .tc .vmem S1x128x128 .f32) (harg2 : arg2.IsWhole) (arg3 : Memref sig .tc .vmem S1x1x128x6400 .f32) (harg3 : arg3.IsWhole) (arg4 : Memref sig .tc .vmem S1x1x128x6400 .f32) (harg4 : arg4.IsWhole) (x0 : Vec F S1x128x128 .f32) (x1 : Vec F S1x1x128x6400 .f32) (y : S1x1x128x6400.Idx) :
    ∃ pc ∈ (run1 c i arg2 harg2 arg3 harg3 arg4 harg4 x0 x1).1, y ∈ pc.1.set :=
  View.cover_of_tiledL (run1 c i arg2 harg2 arg3 harg3 arg4 harg4 x0 x1).1 S1x1x128x6400.size (by sl_kernel_rfl) y

/-- What the body leaves in the output block's buffer: its store read back. -/
def out1 (c : Dev nD) (i : grid1.Coords) (arg2 : Memref sig .tc .vmem S1x128x128 .f32) (harg2 : arg2.IsWhole) (arg3 : Memref sig .tc .vmem S1x1x128x6400 .f32) (harg3 : arg3.IsWhole) (arg4 : Memref sig .tc .vmem S1x1x128x6400 .f32) (harg4 : arg4.IsWhole) (x0 : Vec F S1x128x128 .f32) (x1 : Vec F S1x1x128x6400 .f32) : Vec F S1x1x128x6400 .f32 :=
  VO1.read (Elt F) (VO1.writes (Elt F) VO1.junk (run1 c i arg2 harg2 arg3 harg3 arg4 harg4 x0 x1).1)

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => out1 c (grid1.coords t) (ms1_0 t) (hs1_0 t) (ms1_1 t) (hs1_1 t) (ms1_2 t) (hs1_2 t) (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = out1 c (grid1.coords t) (ms1_0 t) (hs1_0 t) (ms1_1 t) (hs1_1 t) (ms1_2 t) (hs1_2 t) (blk1 V c 0 t) (blk1 V c 1 t) := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold out1
  iintro ⟨HΦ, Ho, ⟨%d0, H0⟩, ⟨%d1, H1⟩, ⟨%d2, H2⟩⟩
  iapply ((run1 c (grid1.coords t) (ms1_0 t) (hs1_0 t) (ms1_1 t) (hs1_1 t) (ms1_2 t) (hs1_2 t) (blk1 V c 0 t) (blk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (ocover1 _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrameKI.Run.lean ====
/-
  The whole run.  The program is: three reshapes of the arguments on the host, the first kernel, the second kernel,
  one reshape of the result on the host.  The contents of the core's buffers at each boundary are a fold from the
  launch memory: a host stretch applies its operations; a kernel leaves each of its windows' arrays at what its
  write-backs leave and every other buffer as entered.  Each kernel is entered from every unscoped buffer held at the
  boundary's contents, with the generator register at some state and nothing owed, and left the same way.  The launch
  then says: every weakly fair execution terminates, and the final memory holds every unscoped buffer at the last
  boundary's contents.  The arguments are written by no host operation and by no kernel, so they end as launched.
-/
import proofs.«176884_j53326313947744_2_alg».proof.Proof.FrameKI.Data0
import proofs.«176884_j53326313947744_2_alg».proof.Proof.FrameKI.Data1
import proofs.«176884_j53326313947744_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the three reshapes: the first kernel's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first kernel: the second kernel's entry. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second kernel. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last reshape: the end. -/
abbrev W4 : Dev nD → Valuation τ sig (Elt F) := fun c => StableHlo.after hostOps2 (W3 m c)

/-- An argument's buffer is written by no host operation and is no array of either kernel: it ends as launched. -/
theorem W4_arg (c : Dev nD) (r : Ref sig .tc) (h0 : r ∉ hostOps0_W) (h2 : r ∉ hostOps2_W)
    (hs0 : ∀ w, Pipeline.arrRef spec0 w ≠ r) (hs1 : ∀ w, Pipeline.arrRef spec1 w ≠ r) :
    W4 m c (Proc.devRef .tc r) = m ((c : Thread nD τ).loc r) :=
  calc W4 m c (Proc.devRef .tc r)
    _ = W3 m c (Proc.devRef .tc r) := StableHlo.after_of_writes_sub hostOps2 _ hostOps2_writes h2
    _ = W2 m c (Proc.devRef .tc r) := W3_of_ne m c r hs1
    _ = W1 m c (Proc.devRef .tc r) := W2_of_ne m c r hs0
    _ = W0 m c (Proc.devRef .tc r) := StableHlo.after_of_writes_sub hostOps0 _ hostOps0_writes h0
    _ = m ((c : Thread nD τ).loc r) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The kernels as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- Every weakly fair execution terminates, nothing faulting, and the final memory holds every unscoped buffer at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every execution terminates, nothing faulting, and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide))⟩) (run_all m ρ)

end Cert.KernelIdeal.Fr

end
-- ==== Proof.FrameKI.Pieces.lean ====
/-
  What each case's stores leave, as the bodies' arithmetic: every buffer is stored whole, so what a buffer ends with is
  the payload of its last store, over the blocks the body loaded — and a load of the accumulator after a store into it
  reads that store's payload.
    case c = 0:            accumulator = zeros + product of the two input blocks
    otherwise:             accumulator = what the point before left + that product
    case c = 15 also:      output block = softmax of the new accumulator
    second kernel:         output block = product of its two input blocks
-/
import proofs.«176884_j53326313947744_2_alg».proof.Proof.FrameKI.Data0
import proofs.«176884_j53326313947744_2_alg».proof.Proof.FrameKI.Data1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl
theorem hz4 : (![0, 0, 0, 0] : Fin 4 → Nat) = fun _ => 0 := by funext a; fin_cases a <;> rfl

theorem accA_eq (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : cond0_0 i) (hc1 : ¬cond0_1 i) (x0 x1 : Vec F S1x1x128x6400 .f32) :
    accA c i arg2 harg2 arg3 harg3 arg4 harg4 arg5 harg5 hc0 hc1 x0 x1 = k0_pay2 x0 x1 (k0_pay1 (F := F)) := by
  unfold accA
  rw [View.read_writes_junk_eq_canon]
  unfold run0A
  dsimp only
  (try sl_unfold_run_names)
  simp only [View.canon_cons_unit_zero (S := S128x128) hz2, View.canon_unit_zero (S := S128x128) hz2,
    View.canon_unit_zero (S := S1x128x128) hz3, View.canon_unit_zero (S := S1x1x128x6400) hz4,
    View.readCov_unit_zero (S := S128x128) _ hz2, View.readAt_eq_ld, Memref.IsWhole.read_unread,
    View.ld_unit_zero (S := S1x1x128x6400) hz4, View.ld_unit_zero (S := S128x128) hz2, View.ld_unit_zero (S := S1x128x128) hz3]
  all_goals (try sl_unfold_run_names)
  all_goals (try simp only [View.canon_cons_unit_zero (S := S128x128) hz2, View.canon_unit_zero (S := S128x128) hz2, View.canon_unit_zero (S := S1x128x128) hz3, View.canon_unit_zero (S := S1x1x128x6400) hz4, View.readCov_unit_zero (S := S128x128) _ hz2, View.readAt_eq_ld, Memref.IsWhole.read_unread, View.ld_unit_zero (S := S1x1x128x6400) hz4, View.ld_unit_zero (S := S128x128) hz2, View.ld_unit_zero (S := S1x128x128) hz3])

theorem accB_eq (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : ¬cond0_1 i) (x0 x1 : Vec F S1x1x128x6400 .f32) (xs : Vec F S128x128 .f32) :
    accB c i arg2 harg2 arg3 harg3 arg4 harg4 arg5 harg5 hc0 hc1 x0 x1 xs = k0_pay2 x0 x1 xs := by
  unfold accB
  rw [View.read_writes_junk_eq_canon]
  unfold run0B
  dsimp only
  (try sl_unfold_run_names)
  simp only [View.canon_cons_unit_zero (S := S128x128) hz2, View.canon_unit_zero (S := S128x128) hz2,
    View.canon_unit_zero (S := S1x128x128) hz3, View.canon_unit_zero (S := S1x1x128x6400) hz4,
    View.readCov_unit_zero (S := S128x128) _ hz2, View.readAt_eq_ld, Memref.IsWhole.read_unread,
    View.ld_unit_zero (S := S1x1x128x6400) hz4, View.ld_unit_zero (S := S128x128) hz2, View.ld_unit_zero (S := S1x128x128) hz3]
  all_goals (try sl_unfold_run_names)
  all_goals (try simp only [View.canon_cons_unit_zero (S := S128x128) hz2, View.canon_unit_zero (S := S128x128) hz2, View.canon_unit_zero (S := S1x128x128) hz3, View.canon_unit_zero (S := S1x1x128x6400) hz4, View.readCov_unit_zero (S := S128x128) _ hz2, View.readAt_eq_ld, Memref.IsWhole.read_unread, View.ld_unit_zero (S := S1x1x128x6400) hz4, View.ld_unit_zero (S := S128x128) hz2, View.ld_unit_zero (S := S1x128x128) hz3])

theorem accC_eq (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i) (x0 x1 : Vec F S1x1x128x6400 .f32) (xs : Vec F S128x128 .f32) :
    accC c i arg2 harg2 arg3 harg3 arg4 harg4 arg5 harg5 hc0 hc1 x0 x1 xs = k0_pay2 x0 x1 xs := by
  unfold accC
  rw [View.read_writes_junk_eq_canon]
  unfold run0C
  dsimp only
  (try sl_unfold_run_names)
  simp only [View.canon_cons_unit_zero (S := S128x128) hz2, View.canon_unit_zero (S := S128x128) hz2,
    View.canon_unit_zero (S := S1x128x128) hz3, View.canon_unit_zero (S := S1x1x128x6400) hz4,
    View.readCov_unit_zero (S := S128x128) _ hz2, View.readAt_eq_ld, Memref.IsWhole.read_unread,
    View.ld_unit_zero (S := S1x1x128x6400) hz4, View.ld_unit_zero (S := S128x128) hz2, View.ld_unit_zero (S := S1x128x128) hz3]
  all_goals (try sl_unfold_run_names)
  all_goals (try simp only [View.canon_cons_unit_zero (S := S128x128) hz2, View.canon_unit_zero (S := S128x128) hz2, View.canon_unit_zero (S := S1x128x128) hz3, View.canon_unit_zero (S := S1x1x128x6400) hz4, View.readCov_unit_zero (S := S128x128) _ hz2, View.readAt_eq_ld, Memref.IsWhole.read_unread, View.ld_unit_zero (S := S1x1x128x6400) hz4, View.ld_unit_zero (S := S128x128) hz2, View.ld_unit_zero (S := S1x128x128) hz3])

theorem outC_eq (c : Dev nD) (i : grid0.Coords) (arg2 : Memref sig .tc .vmem S1x1x128x6400 .f32) (harg2 : arg2.IsWhole) (arg3 : Memref sig .tc .vmem S1x1x128x6400 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i) (x0 x1 : Vec F S1x1x128x6400 .f32) (xs : Vec F S128x128 .f32) :
    outC c i arg2 harg2 arg3 harg3 arg4 harg4 arg5 harg5 hc0 hc1 x0 x1 xs = k0_pay3 (k0_pay2 x0 x1 xs) := by
  unfold outC
  rw [View.read_writes_junk_eq_canon]
  unfold run0C
  dsimp only
  (try sl_unfold_run_names)
  simp only [View.canon_cons_unit_zero (S := S128x128) hz2, View.canon_unit_zero (S := S128x128) hz2,
    View.canon_unit_zero (S := S1x128x128) hz3, View.canon_unit_zero (S := S1x1x128x6400) hz4,
    View.readCov_unit_zero (S := S128x128) _ hz2, View.readAt_eq_ld, Memref.IsWhole.read_unread,
    View.ld_unit_zero (S := S1x1x128x6400) hz4, View.ld_unit_zero (S := S128x128) hz2, View.ld_unit_zero (S := S1x128x128) hz3]
  all_goals (try sl_unfold_run_names)
  all_goals (try simp only [View.canon_cons_unit_zero (S := S128x128) hz2, View.canon_unit_zero (S := S128x128) hz2, View.canon_unit_zero (S := S1x128x128) hz3, View.canon_unit_zero (S := S1x1x128x6400) hz4, View.readCov_unit_zero (S := S128x128) _ hz2, View.readAt_eq_ld, Memref.IsWhole.read_unread, View.ld_unit_zero (S := S1x1x128x6400) hz4, View.ld_unit_zero (S := S128x128) hz2, View.ld_unit_zero (S := S1x128x128) hz3])

theorem out1_eq (c : Dev nD) (i : grid1.Coords) (arg2 : Memref sig .tc .vmem S1x128x128 .f32) (harg2 : arg2.IsWhole) (arg3 : Memref sig .tc .vmem S1x1x128x6400 .f32) (harg3 : arg3.IsWhole) (arg4 : Memref sig .tc .vmem S1x1x128x6400 .f32) (harg4 : arg4.IsWhole) (x0 : Vec F S1x128x128 .f32) (x1 : Vec F S1x1x128x6400 .f32) :
    out1 c i arg2 harg2 arg3 harg3 arg4 harg4 x0 x1 = k1_pay1 x0 x1 := by
  unfold out1
  rw [View.read_writes_junk_eq_canon]
  unfold run1
  dsimp only
  (try sl_unfold_run_names)
  simp only [View.canon_cons_unit_zero (S := S128x128) hz2, View.canon_unit_zero (S := S128x128) hz2,
    View.canon_unit_zero (S := S1x128x128) hz3, View.canon_unit_zero (S := S1x1x128x6400) hz4,
    View.readCov_unit_zero (S := S128x128) _ hz2, View.readAt_eq_ld, Memref.IsWhole.read_unread,
    View.ld_unit_zero (S := S1x1x128x6400) hz4, View.ld_unit_zero (S := S128x128) hz2, View.ld_unit_zero (S := S1x128x128) hz3]
  all_goals (try sl_unfold_run_names)
  all_goals (try simp only [View.canon_cons_unit_zero (S := S128x128) hz2, View.canon_unit_zero (S := S128x128) hz2, View.canon_unit_zero (S := S1x128x128) hz3, View.canon_unit_zero (S := S1x1x128x6400) hz4, View.readCov_unit_zero (S := S128x128) _ hz2, View.readAt_eq_ld, Memref.IsWhole.read_unread, View.ld_unit_zero (S := S1x1x128x6400) hz4, View.ld_unit_zero (S := S128x128) hz2, View.ld_unit_zero (S := S1x128x128) hz3])

end Cert.KernelIdeal.Fr

end
-- ==== Proof.FrameKI.Blocks.lean ====
/-
  The windows' blocks, read at coordinates.

  Both kernels run over the grid of 2 x 16 points (b, c), point number t = 16 b + c.  A window over an array with a
  channel axis takes the block (b, c) of it: one whole 128 x 6400 plane.  A window over the score array takes the
  block b: one whole 128 x 128 matrix, the same for the sixteen points of a b.  Each index map is decided once over
  the 32 points; a block's entry is then the array's entry at the block's offset plus the entry's own coordinates.
-/
import proofs.«176884_j53326313947744_2_alg».proof.Proof.FrameKI.Base
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## The index maps over the grid -/

/-- The first kernel: the two input windows take block (b, c); the output window takes block b. -/
theorem idx0 : ∀ t : Fin cfg0.N,
    (win0_0.index t (0 : Fin 4) = t.val / 16 ∧ win0_0.index t (1 : Fin 4) = t.val % 16
      ∧ win0_0.index t (2 : Fin 4) = 0 ∧ win0_0.index t (3 : Fin 4) = 0)
    ∧ (win0_1.index t (0 : Fin 4) = t.val / 16 ∧ win0_1.index t (1 : Fin 4) = t.val % 16
      ∧ win0_1.index t (2 : Fin 4) = 0 ∧ win0_1.index t (3 : Fin 4) = 0)
    ∧ (win0_2.index t (0 : Fin 3) = t.val / 16 ∧ win0_2.index t (1 : Fin 3) = 0 ∧ win0_2.index t (2 : Fin 3) = 0) :=
  (by decide +kernel : ∀ t : Fin grid0.N, _)

/-- The second kernel: the score window takes block b; the value window and the output window take block (b, c). -/
theorem idx1 : ∀ t : Fin cfg1.N,
    (win1_0.index t (0 : Fin 3) = t.val / 16 ∧ win1_0.index t (1 : Fin 3) = 0 ∧ win1_0.index t (2 : Fin 3) = 0)
    ∧ (win1_1.index t (0 : Fin 4) = t.val / 16 ∧ win1_1.index t (1 : Fin 4) = t.val % 16
      ∧ win1_1.index t (2 : Fin 4) = 0 ∧ win1_1.index t (3 : Fin 4) = 0)
    ∧ (win1_2.index t (0 : Fin 4) = t.val / 16 ∧ win1_2.index t (1 : Fin 4) = t.val % 16
      ∧ win1_2.index t (2 : Fin 4) = 0 ∧ win1_2.index t (3 : Fin 4) = 0) :=
  (by decide +kernel : ∀ t : Fin grid1.N, _)

/-! ## The input blocks of the first kernel -/

/-- The first input block at point (b, c) is the plane (b, c) of the first flattened argument. -/
theorem blk0_0_apply (c : Dev nD) (t : Fin cfg0.N) (b : Fin 2) (c' : Fin 16) (ht : t.val = 16 * b.val + c'.val)
    (d : Fin 128) (k : Fin 6400) :
    (blk0 V c 0 t : Vec F S1x1x128x6400 .f32) (ix4 0 0 d k) = V c main_v0 (ix4 b c' d k) := by
  obtain ⟨⟨e0, e1, e2, e3⟩, -, -⟩ := idx0 t
  have hb := b.isLt
  have hc := c'.isLt
  show V c main_v0 (((cfg0.win 0).blk t).view.emb (ix4 0 0 d k)) = V c main_v0 (ix4 b c' d k)
  refine congrArg (V c main_v0) (funext fun a => Fin.ext ?_)
  match a with
  | ⟨0, _⟩ => show win0_0.index t (0 : Fin 4) * 1 + 1 * 0 = b.val; omega
  | ⟨1, _⟩ => show win0_0.index t (1 : Fin 4) * 1 + 1 * 0 = c'.val; omega
  | ⟨2, _⟩ => show win0_0.index t (2 : Fin 4) * 128 + 1 * d.val = d.val; omega
  | ⟨3, _⟩ => show win0_0.index t (3 : Fin 4) * 6400 + 1 * k.val = k.val; omega

/-- The second input block at point (b, c) is the plane (b, c) of the second flattened argument. -/
theorem blk0_1_apply (c : Dev nD) (t : Fin cfg0.N) (b : Fin 2) (c' : Fin 16) (ht : t.val = 16 * b.val + c'.val)
    (d : Fin 128) (k : Fin 6400) :
    (blk0 V c 1 t : Vec F S1x1x128x6400 .f32) (ix4 0 0 d k) = V c main_v1 (ix4 b c' d k) := by
  obtain ⟨-, ⟨e0, e1, e2, e3⟩, -⟩ := idx0 t
  have hb := b.isLt
  have hc := c'.isLt
  show V c main_v1 (((cfg0.win 1).blk t).view.emb (ix4 0 0 d k)) = V c main_v1 (ix4 b c' d k)
  refine congrArg (V c main_v1) (funext fun a => Fin.ext ?_)
  match a with
  | ⟨0, _⟩ => show win0_1.index t (0 : Fin 4) * 1 + 1 * 0 = b.val; omega
  | ⟨1, _⟩ => show win0_1.index t (1 : Fin 4) * 1 + 1 * 0 = c'.val; omega
  | ⟨2, _⟩ => show win0_1.index t (2 : Fin 4) * 128 + 1 * d.val = d.val; omega
  | ⟨3, _⟩ => show win0_1.index t (3 : Fin 4) * 6400 + 1 * k.val = k.val; omega

/-! ## The input blocks of the second kernel -/

/-- The first input block at point (b, c) is the matrix b of the score array, whatever c. -/
theorem blk1_0_apply (c : Dev nD) (t : Fin cfg1.N) (b : Fin 2) (c' : Fin 16) (ht : t.val = 16 * b.val + c'.val)
    (d e : Fin 128) :
    (blk1 V c 0 t : Vec F S1x128x128 .f32) (ix3 0 d e) = V c main_v3 (ix3 b d e) := by
  obtain ⟨⟨e0, e1, e2⟩, -, -⟩ := idx1 t
  have hb := b.isLt
  have hc := c'.isLt
  show V c main_v3 (((cfg1.win 0).blk t).view.emb (ix3 0 d e)) = V c main_v3 (ix3 b d e)
  refine congrArg (V c main_v3) (funext fun a => Fin.ext ?_)
  match a with
  | ⟨0, _⟩ => show win1_0.index t (0 : Fin 3) * 1 + 1 * 0 = b.val; omega
  | ⟨1, _⟩ => show win1_0.index t (1 : Fin 3) * 128 + 1 * d.val = d.val; omega
  | ⟨2, _⟩ => show win1_0.index t (2 : Fin 3) * 128 + 1 * e.val = e.val; omega

/-- The second input block at point (b, c) is the plane (b, c) of the third flattened argument. -/
theorem blk1_1_apply (c : Dev nD) (t : Fin cfg1.N) (b : Fin 2) (c' : Fin 16) (ht : t.val = 16 * b.val + c'.val)
    (e : Fin 128) (k : Fin 6400) :
    (blk1 V c 1 t : Vec F S1x1x128x6400 .f32) (ix4 0 0 e k) = V c main_v2 (ix4 b c' e k) := by
  obtain ⟨-, ⟨e0, e1, e2, e3⟩, -⟩ := idx1 t
  have hb := b.isLt
  have hc := c'.isLt
  show V c main_v2 (((cfg1.win 1).blk t).view.emb (ix4 0 0 e k)) = V c main_v2 (ix4 b c' e k)
  refine congrArg (V c main_v2) (funext fun a => Fin.ext ?_)
  match a with
  | ⟨0, _⟩ => show win1_1.index t (0 : Fin 4) * 1 + 1 * 0 = b.val; omega
  | ⟨1, _⟩ => show win1_1.index t (1 : Fin 4) * 1 + 1 * 0 = c'.val; omega
  | ⟨2, _⟩ => show win1_1.index t (2 : Fin 4) * 128 + 1 * e.val = e.val; omega
  | ⟨3, _⟩ => show win1_1.index t (3 : Fin 4) * 6400 + 1 * k.val = k.val; omega

/-! ## The output windows' rectangles -/

/-- The first kernel's output block at a point of b sits at the matrix b of the score array. -/
theorem emb0_2 (t : Fin cfg0.N) (b : Fin 2) (ht : t.val / 16 = b.val) (d e : Fin 128) :
    ((cfg0.win 2).blk t).view.emb (ix3 0 d e) = ix3 b d e := by
  obtain ⟨-, -, ⟨e0, e1, e2⟩⟩ := idx0 t
  refine funext fun a => Fin.ext ?_
  match a with
  | ⟨0, _⟩ => show win0_2.index t (0 : Fin 3) * 1 + 1 * 0 = b.val; omega
  | ⟨1, _⟩ => show win0_2.index t (1 : Fin 3) * 128 + 1 * d.val = d.val; omega
  | ⟨2, _⟩ => show win0_2.index t (2 : Fin 3) * 128 + 1 * e.val = e.val; omega

/-- An index of the score array is in the first kernel's output block at point t exactly when its first coordinate
    is t / 16. -/
theorem mem_blk0_2 (t : Fin cfg0.N) (i : S2x128x128.Idx) :
    i ∈ ((cfg0.win 2).blk t).view.set ↔ (i 0).val = t.val / 16 := by
  obtain ⟨-, -, ⟨e0, e1, e2⟩⟩ := idx0 t
  have h1 : (i 1).val < 128 := (i 1).isLt
  have h2 : (i 2).val < 128 := (i 2).isLt
  show i ∈ ((View.whole main_v3).slice (win0_2.rect t)).set ↔ _
  rw [View.set_slice_whole, Rect.mem_set_unit]
  constructor
  · intro h
    have b0 : win0_2.index t (0 : Fin 3) * 1 ≤ (i 0).val ∧ (i 0).val < win0_2.index t (0 : Fin 3) * 1 + 1 := h 0
    omega
  · intro h a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 128 ≤ (i 1).val ∧ (i 1).val < win0_2.index t (1 : Fin 3) * 128 + 128; omega
    | ⟨2, _⟩ => show win0_2.index t (2 : Fin 3) * 128 ≤ (i 2).val ∧ (i 2).val < win0_2.index t (2 : Fin 3) * 128 + 128; omega

/-- The second kernel's output block at point (b, c) sits at the plane (b, c) of the flat result. -/
theorem emb1_2 (t : Fin cfg1.N) (b : Fin 2) (c' : Fin 16) (ht : t.val = 16 * b.val + c'.val) (d : Fin 128) (k : Fin 6400) :
    ((cfg1.win 2).blk t).view.emb (ix4 0 0 d k) = ix4 b c' d k := by
  obtain ⟨-, -, ⟨e0, e1, e2, e3⟩⟩ := idx1 t
  have hb := b.isLt
  have hc := c'.isLt
  refine funext fun a => Fin.ext ?_
  match a with
  | ⟨0, _⟩ => show win1_2.index t (0 : Fin 4) * 1 + 1 * 0 = b.val; omega
  | ⟨1, _⟩ => show win1_2.index t (1 : Fin 4) * 1 + 1 * 0 = c'.val; omega
  | ⟨2, _⟩ => show win1_2.index t (2 : Fin 4) * 128 + 1 * d.val = d.val; omega
  | ⟨3, _⟩ => show win1_2.index t (3 : Fin 4) * 6400 + 1 * k.val = k.val; omega

/-- An index of the flat result is in the second kernel's output block at point t exactly when its first two
    coordinates are the point's: 16 b + c = t. -/
theorem mem_blk1_2 (t : Fin cfg1.N) (i : S2x16x128x6400.Idx) :
    i ∈ ((cfg1.win 2).blk t).view.set ↔ 16 * (i 0).val + (i 1).val = t.val := by
  obtain ⟨-, -, ⟨e0, e1, e2, e3⟩⟩ := idx1 t
  have h0 : (i 0).val < 2 := (i 0).isLt
  have h1 : (i 1).val < 16 := (i 1).isLt
  have h2 : (i 2).val < 128 := (i 2).isLt
  have h3 : (i 3).val < 6400 := (i 3).isLt
  show i ∈ ((View.whole main_v4).slice (win1_2.rect t)).set ↔ _
  rw [View.set_slice_whole, Rect.mem_set_unit]
  constructor
  · intro h
    have b0 : win1_2.index t (0 : Fin 4) * 1 ≤ (i 0).val ∧ (i 0).val < win1_2.index t (0 : Fin 4) * 1 + 1 := h 0
    have b1 : win1_2.index t (1 : Fin 4) * 1 ≤ (i 1).val ∧ (i 1).val < win1_2.index t (1 : Fin 4) * 1 + 1 := h 1
    omega
  · intro h a
    match a with
    | ⟨0, _⟩ => show win1_2.index t (0 : Fin 4) * 1 ≤ (i 0).val ∧ (i 0).val < win1_2.index t (0 : Fin 4) * 1 + 1; omega
    | ⟨1, _⟩ => show win1_2.index t (1 : Fin 4) * 1 ≤ (i 1).val ∧ (i 1).val < win1_2.index t (1 : Fin 4) * 1 + 1; omega
    | ⟨2, _⟩ => show win1_2.index t (2 : Fin 4) * 128 ≤ (i 2).val ∧ (i 2).val < win1_2.index t (2 : Fin 4) * 128 + 128; omega
    | ⟨3, _⟩ => show win1_2.index t (3 : Fin 4) * 6400 ≤ (i 3).val ∧ (i 3).val < win1_2.index t (3 : Fin 4) * 6400 + 6400; omega

end Cert.KernelIdeal.Fr

end
-- ==== Proof.Spec.lean ====
/-
  The specification of this certificate: the one function of the three argument arrays that both programs compute
  at the ideal instance.

  The arguments are arrays x, xt, g of shape [2, 16, 128, 80, 80], read as [B, C, D, H, W].  Write k = 80 h + w for a
  pixel, so that a plane (b, c, d) is a row of 6400 entries.

    score  (b, d, e)        = sum over c and k of  x (b, c, d, k) * xt (b, c, e, k)
    attn   (b, d, e)        = the softmax of the row  e' |-> score (b, d, e')  at e
    out    (b, c, d, h, w)  = sum over e of  attn (b, d, e) * g (b, c, e, h, w)

  The softmax is spelt exactly as both programs spell it: the row maximum is the fold of max from minus infinity,
  taken once more against minus infinity; each entry is exp of the difference; the quotient is the ideal quotient.
-/
import Idealize.ShloMosaic.PureOps.Ideal
import Idealize.ShloMosaic.Lib.ValueIdx

noncomputable section

namespace Cert.Spec

open Idealize.ShloMosaic Idealize.ShloMosaic.ValueIdx

/-- The shape of each argument and of the result. -/
abbrev SArg : Shape := ⟨5, ![2, 16, 128, 80, 80]⟩

/-- An argument read as a [2, 16, 128, 6400] array: entry k of the plane (b, c, d) is the pixel (k / 80, k % 80). -/
def flat (x : SArg.Idx → EReal) (b : Fin 2) (c : Fin 16) (d : Fin 128) (k : Fin 6400) : EReal :=
  x (ix5 b c d (⟨k.val / 80, by omega⟩ : Fin 80) (⟨k.val % 80, by omega⟩ : Fin 80))

/-- The scores: the contraction of x and xt over the channel c and the pixel k. -/
def score (x xt : SArg.Idx → EReal) (b : Fin 2) (d e : Fin 128) : EReal :=
  ∑ c : Fin 16, ∑ k : Fin 6400, flat x b c d k * flat xt b c e k

/-- A row's maximum as the programs take it: the fold of max from minus infinity, once more against minus infinity. -/
def rowMax (s : Fin 128 → EReal) : EReal := max ⊥ (Finset.univ.fold max ⊥ s)

/-- The softmax of a row of 128 extended reals, at entry e. -/
def softmaxRow (s : Fin 128 → EReal) (e : Fin 128) : EReal :=
  Ideal.div (Ideal.exp (s e - rowMax s)) (∑ e' : Fin 128, Ideal.exp (s e' - rowMax s))

/-- The attention weights. -/
def attn (x xt : SArg.Idx → EReal) (b : Fin 2) (d e : Fin 128) : EReal :=
  softmaxRow (fun e' => score x xt b d e') e

/-- The result at the coordinates (b, c, d, h, w). -/
def outAt (x xt g : SArg.Idx → EReal) (b : Fin 2) (c : Fin 16) (d : Fin 128) (h w : Fin 80) : EReal :=
  ∑ e : Fin 128, attn x xt b d e * g (ix5 b c e h w)

/-- The result array. -/
def out (x xt g : SArg.Idx → EReal) : SArg.Idx → EReal :=
  fun i => outAt x xt g (i 0) (i 1) (i 2) (i 3) (i 4)

end Cert.Spec

end
-- ==== Proof.PayLayout.lean ====
/-
  Layout operations read at an index written by coordinates: a shape cast that drops or adds two leading unit
  axes of a matrix, a shape cast that turns a vector into a column, and a column broadcast along its rows.
  Each is the library's reading of the operation at the operand index with the same row-major position (for a
  broadcast: the same leading coordinate and 0 on the unit axis).
-/
import Idealize.ShloMosaic.Lib.Pipeline.Value
import Idealize.ShloMosaic.Lib.ValueIdx
import Idealize.ShloMosaic.Lib.ValueLayout

namespace Cert.KernelIdeal.Pay

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column at `(i, 0)`. -/
theorem broadcastTo_a1_ab_apply {a b : ℕ} (x : (⟨2, ![a, 1]⟩ : Shape).Idx → α)
    (h : (⟨2, ![a, 1]⟩ : Shape).Broadcasts ⟨2, ![a, b]⟩) (hb : a ≠ 1) (i : Fin a) (j : Fin b) :
    broadcastTo ⟨2, ![a, b]⟩ x h (ix2 i j) = x (ix2 i (0 : Fin 1)) :=
  broadcastTo_apply x h _ _ (fun c => by
    match c with
    | ⟨0, _⟩ => exact (if_neg hb).symm
    | ⟨1, _⟩ => exact (if_pos rfl).symm)

end Cert.KernelIdeal.Pay
-- ==== Proof.PayReduce.lean ====
/-
  Row reductions of a matrix read at a row, at the ideal instance, and the column that a reduced vector becomes
  when it is cast to `[a, 1]` and broadcast back along the rows.

  A reduction of a `[a, b]` matrix along axis 1 reads, at row `i`, the source at `(i, k)` for `k` over the `b`
  columns: a sum is the `Fin`-indexed sum, a maximum is the fold of `max` from the accumulator word's value. The word
  `0xFF800000` is minus infinity.
-/
import proofs.«176884_j53326313947744_2_alg».proof.Proof.PayLayout
import Idealize.ShloMosaic.PureOps.Ideal.Laws
import Idealize.ShloMosaic.Lib.ValueIdx

noncomputable section

namespace Cert.KernelIdeal.Pay

open Idealize.ShloMosaic Idealize.ShloMosaic.ValueIdx

/-- The f32 word `0xFF800000` is minus infinity. -/
theorem ofBits_negInf_f32 : Ideal.ofBits .f32 0xFF800000#32 = ⊥ := by simp [Ideal.ofBits, Ideal.ieee]

/-- Over row `i` of a `[a, b]` matrix reduced along axis 1, the source index with column `k` is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by
    match c with
    | ⟨0, _⟩ => rfl
    | ⟨1, _⟩ => rfl)

variable {φ : FTy}

/-- The sum along axis 1 of a `[a, b]` matrix, at row `i`: the sum over the columns `k` of the entry `(i, k)`. -/
theorem rowSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- The maximum along axis 1 of a `[a, b]` matrix, at row `i`: the fold of `max`, from the accumulator word's value,
    over the columns `k` of the entry `(i, k)`. -/
theorem rowMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  show (Finset.univ : Finset (Fin b)).fold max (Ideal.ofBits φ acc) (src ∘ h.lift (ix1 i)) = _
  congr 1
  funext k
  exact congrArg src (lift_row h i k)

/-- A vector `[a]` cast to the column `[a, 1]` and broadcast to `[a, b]` reads, at `(i, j)`, the vector at `i`. -/
theorem keepdims_col_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (ha : a ≠ 1) (i : Fin a) (j : Fin b) :
    broadcastTo ⟨2, ![a, b]⟩ (shapeCast ⟨2, ![a, 1]⟩ x h1) h2 (ix2 i j) = x (ix1 i) := by
  rw [broadcastTo_a1_ab_apply _ _ ha, shapeCast_a_a1_apply]

end Cert.KernelIdeal.Pay

end
-- ==== Proof.PayMatmul.lean ====
/-
  The two matrix products of the kernel bodies read at an index, at the ideal instance: each is a product accumulated
  into the zero splat, so it is the plain sum over the one contraction coordinate of the operands' products. The
  contraction index is re-indexed through its one coordinate, and the operand indices are written by coordinates.
-/
import proofs.«176884_j53326313947744_2_alg».proof.KernelIdeal
import proofs.«176884_j53326313947744_2_alg».proof.Proof.Gen.KernelIdeal
import Idealize.ShloMosaic.PureOps.Ideal.Laws
import Idealize.ShloMosaic.Lib.ValueIdx

noncomputable section

namespace Cert.KernelIdeal.Pay

open Idealize.ShloMosaic Idealize.ShloMosaic.ValueIdx Cert.KernelIdeal Cert.KernelIdeal.Gen

/-! ## The score matmul: both operands contract their axis 1 -/

theorem lhs_score_0 (i : S128x128.Idx) (q : dot_S128x6400_S128x6400_S128x128_1_1_0_0_n_n.contr.Idx) : (dot_S128x6400_S128x6400_S128x128_1_1_0_0_n_n.lhsIdx i q 0).val = (i 0).val := by
  unfold DotDims.lhsIdx
  rw [dif_neg (show ¬(0 : Fin S128x6400.rank) ∈ dot_S128x6400_S128x6400_S128x128_1_1_0_0_n_n.lhsBatch by decide), dif_pos (show (0 : Fin S128x6400.rank) ∈ dot_S128x6400_S128x6400_S128x128_1_1_0_0_n_n.lhsNonContracting by decide)]
  rfl
theorem lhs_score_1 (i : S128x128.Idx) (q : dot_S128x6400_S128x6400_S128x128_1_1_0_0_n_n.contr.Idx) : (dot_S128x6400_S128x6400_S128x128_1_1_0_0_n_n.lhsIdx i q 1).val = (q ⟨0, by decide⟩).val :=
  dot_S128x6400_S128x6400_S128x128_1_1_0_0_n_n.lhsIdx_val_of_single rfl i q
theorem rhs_score_0 (i : S128x128.Idx) (q : dot_S128x6400_S128x6400_S128x128_1_1_0_0_n_n.contr.Idx) : (dot_S128x6400_S128x6400_S128x128_1_1_0_0_n_n.rhsIdx i q 0).val = (i 1).val := by
  unfold DotDims.rhsIdx
  rw [dif_neg (show ¬(0 : Fin S128x6400.rank) ∈ dot_S128x6400_S128x6400_S128x128_1_1_0_0_n_n.rhsBatch by decide), dif_pos (show (0 : Fin S128x6400.rank) ∈ dot_S128x6400_S128x6400_S128x128_1_1_0_0_n_n.rhsNonContracting by decide)]
  rfl
theorem rhs_score_1 (i : S128x128.Idx) (q : dot_S128x6400_S128x6400_S128x128_1_1_0_0_n_n.contr.Idx) : (dot_S128x6400_S128x6400_S128x128_1_1_0_0_n_n.rhsIdx i q 1).val = (q ⟨0, by decide⟩).val :=
  dot_S128x6400_S128x6400_S128x128_1_1_0_0_n_n.rhsIdx_val_of_single rfl i q

/-- The matrix unit's product of two `[128, 6400]` operands contracting both along axis 1, accumulated into the zero
    splat, read at `(d, e)`: the sum over `k` of the left operand at `(d, k)` times the right operand at `(e, k)`. -/
theorem matmul_score_apply (prec : Option ContractPrecision) (X Y : FVec Ideal S128x6400 .f32) (d e : Fin 128) :
    matmul dot_S128x6400_S128x6400_S128x128_1_1_0_0_n_n prec X Y (constant S128x128 .f32 0x00000000#32) (ix2 d e)
      = ∑ k : Fin 6400, X (ix2 d k) * Y (ix2 e k) := by
  simp only [matmul]
  rw [Ideal.matmul_constant_zero_apply, ← Equiv.sum_comp (contrEquiv1 dot_S128x6400_S128x6400_S128x128_1_1_0_0_n_n 6400 rfl rfl).symm]
  refine Finset.sum_congr rfl fun k _ => ?_
  have hk := contrEquiv1_symm_val dot_S128x6400_S128x6400_S128x128_1_1_0_0_n_n 6400 rfl rfl k
  have el : dot_S128x6400_S128x6400_S128x128_1_1_0_0_n_n.lhsIdx (ix2 d e) ((contrEquiv1 dot_S128x6400_S128x6400_S128x128_1_1_0_0_n_n 6400 rfl rfl).symm k) = ix2 d k := funext fun a => Fin.ext (by
    match a with
    | ⟨0, _⟩ => exact lhs_score_0 _ _
    | ⟨1, _⟩ => exact (lhs_score_1 _ _).trans hk)
  have er : dot_S128x6400_S128x6400_S128x128_1_1_0_0_n_n.rhsIdx (ix2 d e) ((contrEquiv1 dot_S128x6400_S128x6400_S128x128_1_1_0_0_n_n 6400 rfl rfl).symm k) = ix2 e k := funext fun a => Fin.ext (by
    match a with
    | ⟨0, _⟩ => exact rhs_score_0 _ _
    | ⟨1, _⟩ => exact (rhs_score_1 _ _).trans hk)
  rw [el, er]

/-! ## The output matmul: the left operand's axis 1 against the right operand's axis 0 -/

theorem lhs_outv_0 (i : S128x6400.Idx) (q : dot_S128x128_S128x6400_S128x6400_1_0_0_1_n_n.contr.Idx) : (dot_S128x128_S128x6400_S128x6400_1_0_0_1_n_n.lhsIdx i q 0).val = (i 0).val := by
  unfold DotDims.lhsIdx
  rw [dif_neg (show ¬(0 : Fin S128x128.rank) ∈ dot_S128x128_S128x6400_S128x6400_1_0_0_1_n_n.lhsBatch by decide), dif_pos (show (0 : Fin S128x128.rank) ∈ dot_S128x128_S128x6400_S128x6400_1_0_0_1_n_n.lhsNonContracting by decide)]
  rfl
theorem lhs_outv_1 (i : S128x6400.Idx) (q : dot_S128x128_S128x6400_S128x6400_1_0_0_1_n_n.contr.Idx) : (dot_S128x128_S128x6400_S128x6400_1_0_0_1_n_n.lhsIdx i q 1).val = (q ⟨0, by decide⟩).val :=
  dot_S128x128_S128x6400_S128x6400_1_0_0_1_n_n.lhsIdx_val_of_single rfl i q
theorem rhs_outv_0 (i : S128x6400.Idx) (q : dot_S128x128_S128x6400_S128x6400_1_0_0_1_n_n.contr.Idx) : (dot_S128x128_S128x6400_S128x6400_1_0_0_1_n_n.rhsIdx i q 0).val = (q ⟨0, by decide⟩).val :=
  dot_S128x128_S128x6400_S128x6400_1_0_0_1_n_n.rhsIdx_val_of_single rfl i q
theorem rhs_outv_1 (i : S128x6400.Idx) (q : dot_S128x128_S128x6400_S128x6400_1_0_0_1_n_n.contr.Idx) : (dot_S128x128_S128x6400_S128x6400_1_0_0_1_n_n.rhsIdx i q 1).val = (i 1).val := by
  unfold DotDims.rhsIdx
  rw [dif_neg (show ¬(1 : Fin S128x6400.rank) ∈ dot_S128x128_S128x6400_S128x6400_1_0_0_1_n_n.rhsBatch by decide), dif_pos (show (1 : Fin S128x6400.rank) ∈ dot_S128x128_S128x6400_S128x6400_1_0_0_1_n_n.rhsNonContracting by decide)]
  rfl

/-- The matrix unit's product of a `[128, 128]` operand with a `[128, 6400]` operand, accumulated into the zero splat,
    read at `(d, k)`: the sum over `e` of the left operand at `(d, e)` times the right operand at `(e, k)`. -/
theorem matmul_outv_apply {φ₁ φ₂ : FTy} (prec : Option ContractPrecision) (A : FVec Ideal S128x128 φ₁) (G : FVec Ideal S128x6400 φ₂)
    (d : Fin 128) (k : Fin 6400) :
    matmul dot_S128x128_S128x6400_S128x6400_1_0_0_1_n_n prec A G (constant S128x6400 .f32 0x00000000#32) (ix2 d k)
      = ∑ e : Fin 128, A (ix2 d e) * G (ix2 e k) := by
  simp only [matmul]
  rw [Ideal.matmul_constant_zero_apply, ← Equiv.sum_comp (contrEquiv1 dot_S128x128_S128x6400_S128x6400_1_0_0_1_n_n 128 rfl rfl).symm]
  refine Finset.sum_congr rfl fun e _ => ?_
  have he := contrEquiv1_symm_val dot_S128x128_S128x6400_S128x6400_1_0_0_1_n_n 128 rfl rfl e
  have el : dot_S128x128_S128x6400_S128x6400_1_0_0_1_n_n.lhsIdx (ix2 d k) ((contrEquiv1 dot_S128x128_S128x6400_S128x6400_1_0_0_1_n_n 128 rfl rfl).symm e) = ix2 d e := funext fun a => Fin.ext (by
    match a with
    | ⟨0, _⟩ => exact lhs_outv_0 _ _
    | ⟨1, _⟩ => exact (lhs_outv_1 _ _).trans he)
  have er : dot_S128x128_S128x6400_S128x6400_1_0_0_1_n_n.rhsIdx (ix2 d k) ((contrEquiv1 dot_S128x128_S128x6400_S128x6400_1_0_0_1_n_n 128 rfl rfl).symm e) = ix2 e k := funext fun a => Fin.ext (by
    match a with
    | ⟨0, _⟩ => exact (rhs_outv_0 _ _).trans he
    | ⟨1, _⟩ => exact rhs_outv_1 _ _)
  rw [el, er]

end Cert.KernelIdeal.Pay

end
-- ==== Proof.Payloads.lean ====
/-
  The kernel bodies' payloads read at an index, at the ideal instance.

  Region 0 stores three values: the zero fill of the accumulator; the accumulator plus the product of the two loaded
  blocks, contracted along their pixel axis; and the softmax of each row of the accumulator. Region 1 stores the
  product of the attention block with the loaded block of g. Each payload is a chain of pointwise operations, shape
  casts that add or drop unit axes, row reductions kept as columns and broadcast back, and one matrix product into the
  zero splat; read at an index each becomes the plain expression over its operands' entries. Narrowing an operand to
  bf16 is the identity at the ideal instance.
-/
import proofs.«176884_j53326313947744_2_alg».proof.Proof.Spec
import proofs.«176884_j53326313947744_2_alg».proof.Proof.Gen.KernelIdeal.Skeleton
import proofs.«176884_j53326313947744_2_alg».proof.Proof.PayLayout
import proofs.«176884_j53326313947744_2_alg».proof.Proof.PayReduce
import proofs.«176884_j53326313947744_2_alg».proof.Proof.PayMatmul
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Pay

open Idealize.ShloMosaic Idealize.ShloMosaic.ValueIdx Cert.KernelIdeal Cert.KernelIdeal.Gen

/-! ## Region 0: the zero fill -/

/-- The zero fill reads 0 everywhere. -/
theorem pay1_apply (d e : Fin 128) : k0_pay1 (F := Ideal) (ix2 d e) = 0 := by
  unfold k0_pay1
  rw [shapeCast_self]
  exact Ideal.ofBits_zero_f32

/-! ## Region 0: the accumulation step -/

/-- The accumulation step at `(d, e)`: the accumulator there plus the sum over the pixels `k` of the first block at
    `(d, k)` times the second block at `(e, k)`. -/
theorem pay2_apply (v3 v5 : Vec Ideal S1x1x128x6400 .f32) (v8 : Vec Ideal S128x128 .f32) (d e : Fin 128) :
    k0_pay2 v3 v5 v8 (ix2 d e) = v8 (ix2 d e) + ∑ k : Fin 6400, v3 (ix4 0 0 d k) * v5 (ix4 0 0 e k) := by
  unfold k0_pay2
  rw [shapeCast_self, addf_apply, matmul_score_apply]
  refine congrArg (v8 (ix2 d e) + ·) (Finset.sum_congr rfl fun k _ => ?_)
  rw [shapeCast_11ab_ab_apply, shapeCast_11ab_ab_apply]

/-! ## Region 0: the softmax of the accumulator's rows -/

/-- The row maximum as the kernel takes it, kept as a column and broadcast along the row, at `(d, e)`: the
    specification's row maximum of row `d`. -/
theorem rowMaxCol_apply (v16 : Vec Ideal S128x128 .f32) (d e : Fin 128) :
    broadcastTo S128x128
        (shapeCast S128x1
          (maximumf (broadcast S128 (Scalar.ofBits (F := Ideal) .f32 0xFF800000#32))
            (multiReduction .maximumf [1] S128 v16 0xFF800000#32 reduces_S128x128_S128 (.inl rfl) rfl))
          shapeCasts_S128_S128x1)
        broadcasts_S128x1_S128x128 (ix2 d e)
      = Cert.Spec.rowMax (fun e' => v16 (ix2 d e')) := by
  rw [keepdims_col_apply _ _ _ (by decide)]
  have h := rowMax_apply (a := 128) (b := 128) v16 0xFF800000#32 reduces_S128x128_S128 (.inl rfl) rfl d
  refine (congrArg (max (Ideal.ofBits .f32 0xFF800000#32)) h).trans ?_
  rw [ofBits_negInf_f32]
  rfl

/-- The quotient of the exponentials by their row sum, for any matrix `M` subtracted whose row `d` is the constant
    `m`: at `(d, e)` it is exp of the entry less `m`, over the sum along the row of the same. -/
theorem softmaxCore_apply (v16 M : FVec Ideal S128x128 .f32) (m : EReal) (d e : Fin 128)
    (hM : ∀ k : Fin 128, M (ix2 d k) = m) :
    divf (exp (subf v16 M))
        (broadcastTo S128x128
          (shapeCast S128x1
            (multiReduction .add [1] S128 (exp (subf v16 M)) 0x00000000#32 reduces_S128x128_S128 (.inl rfl) rfl)
            shapeCasts_S128_S128x1)
          broadcasts_S128x1_S128x128) (ix2 d e)
      = Ideal.div (Ideal.exp (v16 (ix2 d e) - m)) (∑ e' : Fin 128, Ideal.exp (v16 (ix2 d e') - m)) := by
  rw [divf_apply, keepdims_col_apply _ _ _ (by decide)]
  refine (congrArg (Ideal.div _)
    (rowSum_apply (a := 128) (b := 128) (exp (subf v16 M)) 0x00000000#32 reduces_S128x128_S128 (.inl rfl) rfl d)).trans ?_
  show Ideal.div (Ideal.exp (v16 (ix2 d e) - M (ix2 d e))) (∑ k : Fin 128, Ideal.exp (v16 (ix2 d k) - M (ix2 d k))) = _
  simp only [hM]

/-- The softmax payload at `(0, d, e)`: the specification's softmax of row `d` of the accumulator, at `e`. -/
theorem pay3_apply (v16 : Vec Ideal S128x128 .f32) (d e : Fin 128) :
    k0_pay3 v16 (ix3 0 d e) = Cert.Spec.softmaxRow (fun e' => v16 (ix2 d e')) e := by
  unfold k0_pay3
  rw [shapeCast_ab_1ab_apply]
  exact softmaxCore_apply v16 _ _ d e fun k => rowMaxCol_apply v16 d k

/-! ## Region 1: the attention block times the block of g -/

/-- The output payload at `(0, 0, d, k)`: the sum over `e` of the attention block at `(0, d, e)` times the loaded block
    at `(0, 0, e, k)`. -/
theorem k1pay1_apply (v0 : Vec Ideal S1x128x128 .f32) (v3 : Vec Ideal S1x1x128x6400 .f32) (d : Fin 128) (k : Fin 6400) :
    k1_pay1 v0 v3 (ix4 0 0 d k) = ∑ e : Fin 128, v0 (ix3 0 d e) * v3 (ix4 0 0 e k) := by
  unfold k1_pay1
  rw [shapeCast_ab_11ab_apply, matmul_outv_apply]
  refine Finset.sum_congr rfl fun e _ => ?_
  rw [truncf_apply, truncf_apply, shapeCast_1ab_ab_apply, shapeCast_11ab_ab_apply]

end Cert.KernelIdeal.Pay

end
-- ==== Proof.FrameKI.Acc.lean ====
/-
  The first kernel's accumulator at the ideal instance.  Write X and XT for its two input arrays, of shape
  [2, 16, 128, 6400].  The product of the two input blocks of point (b, j), at (d, e), is
      part (b, j, d, e) = sum over the pixels k of X (b, j, d, k) * XT (b, j, e, k).
  After the point t = 16 b + c the accumulator holds, at (d, e), the sum of part (b, j, d, e) over j = 0 .. c:
  at c = 0 the zero fill plus the first part, afterwards what the point before left plus the next part.
-/
import proofs.«176884_j53326313947744_2_alg».proof.Proof.FrameKI.Pieces
import proofs.«176884_j53326313947744_2_alg».proof.Proof.FrameKI.Blocks
import proofs.«176884_j53326313947744_2_alg».proof.Proof.Payloads
import proofs.«176884_j53326313947744_2_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (V : (c : Dev nD) → (b : Ref sig .tc) → Buf (Elt Ideal) ((c : Thread nD τ).loc b))

/-- The first kernel's two input arrays, as functions of their four coordinates. -/
def inX (c : Dev nD) : S2x16x128x6400.Idx → EReal := V c main_v0
def inXT (c : Dev nD) : S2x16x128x6400.Idx → EReal := V c main_v1

/-- The product of the two input blocks of the point (b, j), at (d, e); zero for j outside the grid. -/
def part (c : Dev nD) (b : Fin 2) (d e : Fin 128) (j : ℕ) : EReal :=
  if h : j < 16 then ∑ k : Fin 6400, inX V c (ix4 b ⟨j, h⟩ d k) * inXT V c (ix4 b ⟨j, h⟩ e k) else 0

/-- One accumulation step at the point (b, c'): what the accumulator held plus that point's part. -/
theorem step_val (c : Dev nD) (t : Fin cfg0.N) (b : Fin 2) (c' : Fin 16) (ht : t.val = 16 * b.val + c'.val)
    (xs : Vec Ideal S128x128 .f32) (d e : Fin 128) :
    k0_pay2 (blk0 V c 0 t) (blk0 V c 1 t) xs (ix2 d e) = xs (ix2 d e) + part V c b d e c'.val := by
  refine (pay2_apply _ _ xs d e).trans ?_
  unfold part; rw [dif_pos c'.isLt]
  refine congrArg (xs (ix2 d e) + ·) (Finset.sum_congr rfl fun k _ => ?_)
  rw [blk0_0_apply V c t b c' ht d k, blk0_1_apply V c t b c' ht e k]
  rfl

/-- The accumulator after the point number n, in the block b = n / 16: the parts of the channels 0 .. n % 16 summed. -/
theorem traj_acc (c : Dev nD) (n : ℕ) : ∀ (hn : n < cfg0.N) (b : Fin 2) (hb : n / 16 = b.val) (d e : Fin 128),
    (traj0 V c n hn).2 (ix2 d e) = ∑ j ∈ Finset.range (n % 16 + 1), part V c b d e j := by
  induction n using Nat.strong_induction_on with
  | _ n ih =>
    intro hn b hb d e
    have hN : n < 32 := lt_of_lt_of_eq hn (show cfg0.N = 32 from N_0)
    by_cases h0 : n % 16 = 0
    · have h1 : ¬ n % 16 = 15 := by omega
      have e0 : traj0 V c n hn = _ := traj0_A V c ⟨n, hn⟩ h0 h1
      rw [e0]; dsimp only
      rw [accA_eq]
      refine (step_val V c ⟨n, hn⟩ b ⟨0, by norm_num⟩ (by show n = 16 * b.val + 0; omega) _ d e).trans ?_
      rw [pay1_apply, zero_add, h0, zero_add, Finset.sum_range_one]
    · by_cases h1 : n % 16 = 15
      · have e0 : traj0 V c n hn = _ := traj0_C V c ⟨n, hn⟩ h0 h1
        rw [e0]; dsimp only
        rw [accC_eq]
        refine (step_val V c ⟨n, hn⟩ b ⟨n % 16, Nat.mod_lt _ (by norm_num)⟩ (by show n = 16 * b.val + n % 16; omega) _ d e).trans ?_
        rw [ih (n - 1) (by omega) _ b (by omega) d e]
        rw [show (n - 1) % 16 + 1 = n % 16 from by omega, Finset.sum_range_succ]
      · have e0 : traj0 V c n hn = _ := traj0_B V c ⟨n, hn⟩ h0 h1
        rw [e0]; dsimp only
        rw [accB_eq]
        refine (step_val V c ⟨n, hn⟩ b ⟨n % 16, Nat.mod_lt _ (by norm_num)⟩ (by show n = 16 * b.val + n % 16; omega) _ d e).trans ?_
        rw [ih (n - 1) (by omega) _ b (by omega) d e]
        rw [show (n - 1) % 16 + 1 = n % 16 from by omega, Finset.sum_range_succ]

end Cert.KernelIdeal.Fr

end
-- ==== Proof.FrameKI.Out0.lean ====
/-
  The first kernel's output array at the ideal instance.  The block b of the score array is written back once, at the
  point (b, 15), when the accumulator holds the sum of all sixteen channels' parts; what is written is the softmax of
  each accumulator row.  The two blocks cover the array, so it ends holding, at (b, d, e), the softmax of the row
  e' |-> sum over j < 16 of part (b, j, d, e'), at e.
-/
import proofs.«176884_j53326313947744_2_alg».proof.Proof.FrameKI.Acc
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (V : (c : Dev nD) → (b : Ref sig .tc) → Buf (Elt Ideal) ((c : Thread nD τ).loc b))

/-- The full channel sum at (b, d, e). -/
def sc (c : Dev nD) (b : Fin 2) (d e : Fin 128) : EReal := ∑ j ∈ Finset.range 16, part V c b d e j

/-- What the score array ends holding. -/
def G0 (c : Dev nD) : S2x128x128.Idx → EReal :=
  fun i => Cert.Spec.softmaxRow (fun e' => sc V c (i 0) (i 1) e') (i 2)

/-- What a point that writes the block back writes: the block b of G0. -/
theorem flushed0 (c : Dev nD) (t : Fin cfg0.N) (hf : (cfg0.win 2).flush t = true) :
    (dat0 V c).flushed 2 t = ((cfg0.win 2).blk t).view.read (Elt Ideal) (G0 V c) := by
  have h1 : t.val % 16 = 15 := (flush0_2 t).mp hf
  have h0 : ¬ t.val % 16 = 0 := by omega
  have hN : t.val < 32 := lt_of_lt_of_eq t.isLt (show cfg0.N = 32 from N_0)
  show (cfg0.win 2).cut (grid0.coords t) ((dat0 V c).after 2 t) = _
  rw [after0_2, traj0_C V c t h0 h1]; dsimp only
  rw [outC_eq]
  funext y
  obtain ⟨z, d, e, rfl⟩ : ∃ (z : Fin 1) (d e : Fin 128), y = ix3 z d e := ⟨y 0, y 1, y 2, eq_ix3 y⟩
  obtain rfl : z = 0 := Subsingleton.elim _ _
  rw [View.read_apply, emb0_2 t ⟨t.val / 16, by omega⟩ rfl d e]
  refine (pay3_apply _ d e).trans ?_
  show Cert.Spec.softmaxRow _ e = Cert.Spec.softmaxRow (fun e' => sc V c ⟨t.val / 16, _⟩ d e') e
  refine congrArg (fun r => Cert.Spec.softmaxRow r e) (funext fun e' => ?_)
  refine (step_val V c t ⟨t.val / 16, by omega⟩ ⟨t.val % 16, Nat.mod_lt _ (by norm_num)⟩ (by show t.val = 16 * (t.val / 16) + t.val % 16; omega) _ d e').trans ?_
  rw [traj_acc V c (t.val - 1) _ ⟨t.val / 16, by omega⟩ (by show (t.val - 1) / 16 = t.val / 16; omega) d e']
  unfold sc
  rw [show (t.val - 1) % 16 + 1 = 15 from by omega, show (⟨t.val % 16, Nat.mod_lt _ (by norm_num)⟩ : Fin 16).val = 15 from h1]
  exact (Finset.sum_range_succ _ 15).symm

theorem arr0 (c : Dev nD) : (dat0 V c).arrAt 2 cfg0.N = G0 V c :=
  (dat0 V c).arrAt_eq_of_cover 2 (G0 V c) (fun t hf => flushed0 V c t hf) (fun i => by
    have h0 : (i 0).val < 2 := (i 0).isLt
    refine ⟨⟨16 * (i 0).val + 15, by rw [show cfg0.N = 32 from N_0]; omega⟩, (flush0_2 _).mpr (by show (16 * (i 0).val + 15) % 16 = 15; omega), ?_⟩
    rw [mem_blk0_2]
    show (i 0).val = (16 * (i 0).val + 15) / 16
    omega)

theorem arr0_apply (c : Dev nD) (b : Fin 2) (d e : Fin 128) :
    (dat0 V c).arrAt 2 cfg0.N (ix3 b d e) = Cert.Spec.softmaxRow (fun e' => sc V c b d e') e :=
  congrFun (arr0 V c) (ix3 b d e)

end Cert.KernelIdeal.Fr

end
-- ==== Proof.FrameKI.Reshape.lean ====
/-
  The two reshapes of the program around its kernels, read at an index.

  The program flattens the last two axes of each argument, 80 x 80 pixels into one axis of 6400, before its kernels, and
  splits the axis again after them.  Pixel (h, w) is entry 80 h + w of the flattened axis; entry k is pixel
  (k / 80, k % 80).  A reshape keeps the row-major position, so each is one equation of positions.
-/
import proofs.«176884_j53326313947744_2_alg».proof.KernelIdeal
import Idealize.ShloMosaic.Lib.ValueIdx
import Idealize.ShloMosaic.Lib.Pipeline.Value

noncomputable section

namespace Cert.KernelIdeal.Fr

open Cert.KernelIdeal Cert.KernelIdeal.Facts₀
open Idealize.ShloMosaic Idealize.ShloMosaic.ValueIdx

variable [Cert.KernelIdeal.Facts₀]
variable {F : FTy → Type} [FloatOps F]

/-- The flattened argument at (b, c, d, k) is the argument at row k / 80, column k % 80 of the plane (b, c, d). -/
theorem reshape_in (x : FVec F S2x16x128x80x80 .f32) (b : Fin 2) (c' : Fin 16) (d : Fin 128) (k : Fin 6400) :
    shapeCast S2x16x128x6400 x shapeCasts_S2x16x128x80x80_S2x16x128x6400 (ix4 b c' d k)
      = x (ix5 b c' d (⟨k.val / 80, by omega⟩ : Fin 80) (⟨k.val % 80, by omega⟩ : Fin 80)) := by
  refine shapeCast_apply x shapeCasts_S2x16x128x80x80_S2x16x128x6400 (ix4 b c' d k) _ ?_
  rewrite [Shape.rowMajor_val_five, Shape.rowMajor_val_four]
  have hk := k.isLt
  show (((b.val * 16 + c'.val) * 128 + d.val) * 80 + k.val / 80) * 80 + k.val % 80
    = ((b.val * 16 + c'.val) * 128 + d.val) * 6400 + k.val
  omega

/-- The result split back at (b, c, d, h, w) is the flat result at entry 80 h + w of the plane (b, c, d). -/
theorem reshape_out (y : FVec F S2x16x128x6400 .f32) (b : Fin 2) (c' : Fin 16) (d : Fin 128) (h w : Fin 80) :
    shapeCast S2x16x128x80x80 y shapeCasts_S2x16x128x6400_S2x16x128x80x80 (ix5 b c' d h w)
      = y (ix4 b c' d (⟨80 * h.val + w.val, by omega⟩ : Fin 6400)) := by
  refine shapeCast_apply y shapeCasts_S2x16x128x6400_S2x16x128x80x80 (ix5 b c' d h w) _ ?_
  rewrite [Shape.rowMajor_val_five, Shape.rowMajor_val_four]
  show ((b.val * 16 + c'.val) * 128 + d.val) * 6400 + (80 * h.val + w.val)
    = (((b.val * 16 + c'.val) * 128 + d.val) * 80 + h.val) * 80 + w.val
  omega

end Cert.KernelIdeal.Fr

end
-- ==== Proof.FrameKI.Inputs.lean ====
/-
  The arrays the kernels find, at the ideal instance, from the launch memory.  The three host reshapes flatten the
  two pixel axes of each argument, so the first kernel's inputs at (b, c, d, k) are the arguments at the pixel
  (k / 80, k % 80); with them the full channel sum is the specification's score.  The second kernel finds the score
  array as the first kernel left it and the third argument flattened.
-/
import proofs.«176884_j53326313947744_2_alg».proof.Proof.FrameKI.Run
import proofs.«176884_j53326313947744_2_alg».proof.Proof.FrameKI.Out0
import proofs.«176884_j53326313947744_2_alg».proof.Proof.FrameKI.Reshape
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (m : (ℓ : Loc nD τ sig) → Buf (Elt Ideal) ℓ)

theorem V1_v0 (c : Dev nD) : (V1 m c main_v0 : S2x16x128x6400.Idx → EReal)
    = shapeCast S2x16x128x6400 (m ((c : Thread nD τ).loc main_arg0)) shapeCasts_S2x16x128x80x80_S2x16x128x6400 := by
  dsimp only [V1, W1, W0, hostOps0]; after_results; rfl
theorem V1_v1 (c : Dev nD) : (V1 m c main_v1 : S2x16x128x6400.Idx → EReal)
    = shapeCast S2x16x128x6400 (m ((c : Thread nD τ).loc main_arg1)) shapeCasts_S2x16x128x80x80_S2x16x128x6400 := by
  dsimp only [V1, W1, W0, hostOps0]; after_results; rfl
theorem V1_v2 (c : Dev nD) : (V1 m c main_v2 : S2x16x128x6400.Idx → EReal)
    = shapeCast S2x16x128x6400 (m ((c : Thread nD τ).loc main_arg2)) shapeCasts_S2x16x128x80x80_S2x16x128x6400 := by
  dsimp only [V1, W1, W0, hostOps0]; after_results; rfl

theorem in0 (c : Dev nD) (b : Fin 2) (c' : Fin 16) (d : Fin 128) (k : Fin 6400) :
    inX (V1 m) c (ix4 b c' d k) = Cert.Spec.flat (m ((c : Thread nD τ).loc main_arg0)) b c' d k :=
  (congrFun (V1_v0 m c) _).trans (reshape_in (F := Ideal) (m ((c : Thread nD τ).loc main_arg0)) b c' d k)
theorem in1 (c : Dev nD) (b : Fin 2) (c' : Fin 16) (d : Fin 128) (k : Fin 6400) :
    inXT (V1 m) c (ix4 b c' d k) = Cert.Spec.flat (m ((c : Thread nD τ).loc main_arg1)) b c' d k :=
  (congrFun (V1_v1 m c) _).trans (reshape_in (F := Ideal) (m ((c : Thread nD τ).loc main_arg1)) b c' d k)
theorem in2 (c : Dev nD) (b : Fin 2) (c' : Fin 16) (d : Fin 128) (k : Fin 6400) :
    V1 m c main_v2 (ix4 b c' d k) = Cert.Spec.flat (m ((c : Thread nD τ).loc main_arg2)) b c' d k :=
  (congrFun (V1_v2 m c) _).trans (reshape_in (F := Ideal) (m ((c : Thread nD τ).loc main_arg2)) b c' d k)

/-- The full channel sum over the first kernel's inputs is the specification's score of the arguments. -/
theorem sc_eq (c : Dev nD) (b : Fin 2) (d e : Fin 128) :
    sc (V1 m) c b d e = Cert.Spec.score (m ((c : Thread nD τ).loc main_arg0)) (m ((c : Thread nD τ).loc main_arg1)) b d e := by
  unfold sc Cert.Spec.score
  rw [Finset.sum_range]
  refine Finset.sum_congr rfl fun j _ => ?_
  unfold part; rw [dif_pos j.isLt]
  refine Finset.sum_congr rfl fun k _ => ?_
  rw [in0 m c b ⟨j.val, j.isLt⟩ d k, in1 m c b ⟨j.val, j.isLt⟩ e k]

/-- The second kernel finds the score array as the first kernel left it: the specification's attention weights. -/
theorem V2_v3 (c : Dev nD) (b : Fin 2) (d e : Fin 128) :
    V2 m c main_v3 (ix3 b d e) = Cert.Spec.attn (m ((c : Thread nD τ).loc main_arg0)) (m ((c : Thread nD τ).loc main_arg1)) b d e := by
  refine (congrFun (W2_arr m c 2) (ix3 b d e)).trans ?_
  rw [arr0_apply]
  unfold Cert.Spec.attn
  exact congrArg (fun r => Cert.Spec.softmaxRow r e) (funext fun e' => sc_eq m c b d e')

/-- and the third argument flattened. -/
theorem V2_v2 (c : Dev nD) (b : Fin 2) (c' : Fin 16) (d : Fin 128) (k : Fin 6400) :
    V2 m c main_v2 (ix4 b c' d k) = Cert.Spec.flat (m ((c : Thread nD τ).loc main_arg2)) b c' d k :=
  (congrFun (W2_of_ne m c main_v2 (by decide)) (ix4 b c' d k)).trans (in2 m c b c' d k)

end Cert.KernelIdeal.Fr

end
-- ==== Proof.FrameKI.Out1.lean ====
/-
  The second kernel's output array as one function of the arrays the kernel is entered with, at the ideal instance.

  The kernel runs over the 2 x 16 points (b, c'), point number t = 16 b + c'. At the point (b, c') it stores, into the
  plane (b, c') of the flat result, the product of the matrix b of the score array with the plane (b, c') of the value
  array. The output window is written back at every point and the 32 planes tile the result, so the result ends
  holding, at (b, c', d, k), the sum over e of the score array at (b, d, e) times the value array at (b, c', e, k).
-/
import proofs.«176884_j53326313947744_2_alg».proof.Proof.FrameKI.Pieces
import proofs.«176884_j53326313947744_2_alg».proof.Proof.FrameKI.Blocks
import proofs.«176884_j53326313947744_2_alg».proof.Proof.Payloads
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (V : (c : Dev nD) → (b : Ref sig .tc) → Buf (Elt Ideal) ((c : Thread nD τ).loc b))

/-- The score array and the value array as the second kernel finds them, as functions on their index sets. -/
def inS (c : Dev nD) : S2x128x128.Idx → EReal := V c main_v3
def inG (c : Dev nD) : S2x16x128x6400.Idx → EReal := V c main_v2

/-- The second kernel's result: at (b, c', d, k) the sum over e of the score array at (b, d, e) times the value array at (b, c', e, k). -/
def G1 (c : Dev nD) : S2x16x128x6400.Idx → EReal :=
  fun i => ∑ e : Fin 128, inS V c (ix3 (i 0) (i 2) e) * inG V c (ix4 (i 0) (i 1) e (i 3))

/-- That result at coordinates. -/
theorem G1_apply (c : Dev nD) (b : Fin 2) (c' : Fin 16) (d : Fin 128) (k : Fin 6400) :
    G1 V c (ix4 b c' d k) = ∑ e : Fin 128, inS V c (ix3 b d e) * inG V c (ix4 b c' e k) := rfl

/-- What the point t writes back is the block t of that result. -/
theorem flushed1_2 (c : Dev nD) (t : Fin cfg1.N) :
    (dat1 V c).flushed 2 t = ((cfg1.win 2).blk t).view.read (Elt Ideal) (G1 V c) := by
  have hN : t.val < 32 := lt_of_lt_of_eq t.isLt (show cfg1.N = 32 from N_1)
  show (cfg1.win 2).cut (grid1.coords t) ((dat1 V c).after 2 t) = _
  rw [after1_2, out1_eq]
  funext y
  obtain ⟨z0, z1, d, k, rfl⟩ : ∃ (z0 z1 : Fin 1) (d : Fin 128) (k : Fin 6400), y = ix4 z0 z1 d k :=
    ⟨y 0, y 1, y 2, y 3, eq_ix4 y⟩
  obtain rfl : z0 = 0 := Subsingleton.elim _ _
  obtain rfl : z1 = 0 := Subsingleton.elim _ _
  have ht : t.val = 16 * (⟨t.val / 16, by omega⟩ : Fin 2).val + (⟨t.val % 16, by omega⟩ : Fin 16).val := by
    show t.val = 16 * (t.val / 16) + t.val % 16
    omega
  show k1_pay1 (blk1 V c 0 t) (blk1 V c 1 t) (ix4 0 0 d k) = G1 V c (((cfg1.win 2).blk t).view.emb (ix4 0 0 d k))
  rw [emb1_2 t ⟨t.val / 16, by omega⟩ ⟨t.val % 16, by omega⟩ ht d k]
  refine (k1pay1_apply _ _ d k).trans ?_
  refine Eq.trans ?_ (G1_apply V c _ _ d k).symm
  refine Finset.sum_congr rfl fun e _ => ?_
  rw [blk1_0_apply V c t _ _ ht d e, blk1_1_apply V c t _ _ ht e k]
  rfl

/-- Every index of the flat result is in the block of the point 16 b + c'. -/
theorem cover1_2 (i : S2x16x128x6400.Idx) :
    ∃ t : Fin cfg1.N, (cfg1.win 2).flush t = true ∧ i ∈ ((cfg1.win 2).blk t).view.set := by
  have h0 : (i 0).val < 2 := (i 0).isLt
  have h1 : (i 1).val < 16 := (i 1).isLt
  have hN : cfg1.N = 32 := N_1
  refine ⟨⟨16 * (i 0).val + (i 1).val, by rw [hN]; omega⟩, flush1_2 _, ?_⟩
  rw [mem_blk1_2]

/-- The flat result after the second kernel. -/
theorem arr1 (c : Dev nD) : (dat1 V c).arrAt 2 cfg1.N = G1 V c :=
  (dat1 V c).arrAt_eq_of_cover 2 (G1 V c) (fun t _ => flushed1_2 V c t) cover1_2

/-- The same at coordinates. -/
theorem arr1_apply (c : Dev nD) (b : Fin 2) (c' : Fin 16) (d : Fin 128) (k : Fin 6400) :
    (dat1 V c).arrAt 2 cfg1.N (ix4 b c' d k) = ∑ e : Fin 128, inS V c (ix3 b d e) * inG V c (ix4 b c' e k) := by
  rw [arr1]
  rfl

end Cert.KernelIdeal.Fr

end
-- ==== Proof.FrameKI.Result.lean ====
/-
  The idealized kernel's result.  The second kernel leaves, at (b, c, d, k), the sum over e of the attention weight
  (b, d, e) times the third argument at (b, c, e, k); the last host reshape splits k into the pixel (h, w) with
  k = 80 h + w.  So the result array is the specification's function of the three arguments, and every weakly fair
  execution ends with the result buffer holding it and the arguments unchanged.
-/
import proofs.«176884_j53326313947744_2_alg».proof.Proof.FrameKI.Inputs
import proofs.«176884_j53326313947744_2_alg».proof.Proof.FrameKI.Out1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (m : (ℓ : Loc nD τ sig) → Buf (Elt Ideal) ℓ)

/-- The second kernel's output array after it has run, as a function of its four coordinates. -/
def outArr (c : Dev nD) : S2x16x128x6400.Idx → EReal := W3 m c (Proc.devRef .tc main_v4)

/-- What the second kernel leaves in its output array. -/
theorem W3_v4 (c : Dev nD) (b : Fin 2) (c' : Fin 16) (d : Fin 128) (k : Fin 6400) :
    outArr m c (ix4 b c' d k)
      = ∑ e : Fin 128, Cert.Spec.attn (m ((c : Thread nD τ).loc main_arg0)) (m ((c : Thread nD τ).loc main_arg1)) b d e * Cert.Spec.flat (m ((c : Thread nD τ).loc main_arg2)) b c' e k := by
  have h1 : outArr m c (ix4 b c' d k) = (dat1 (V2 m) c).arrAt 2 cfg1.N (ix4 b c' d k) := congrFun (W3_arr m c 2) (ix4 b c' d k)
  rw [h1, arr1_apply]
  refine Finset.sum_congr rfl fun e _ => ?_
  rw [show inS (V2 m) c (ix3 b d e) = _ from V2_v3 m c b d e, show inG (V2 m) c (ix4 b c' e k) = _ from V2_v2 m c b c' e k]

/-- The last reshape. -/
theorem W4_v5 (c : Dev nD) : (W4 m c (Proc.devRef .tc main_v5) : S2x16x128x80x80.Idx → EReal)
    = shapeCast S2x16x128x80x80 (W3 m c (Proc.devRef .tc main_v4)) shapeCasts_S2x16x128x6400_S2x16x128x80x80 := by
  dsimp only [W4, hostOps2]; after_results; rfl

/-- The result array is the specification's function of the arguments. -/
theorem result_eq (c : Dev nD) : (W4 m c (Proc.devRef .tc main_v5) : Cert.Spec.SArg.Idx → EReal)
    = Cert.Spec.out (m ((c : Thread nD τ).loc main_arg0)) (m ((c : Thread nD τ).loc main_arg1)) (m ((c : Thread nD τ).loc main_arg2)) := by
  funext i
  obtain ⟨b, c', d, h, w, rfl⟩ : ∃ (b : Fin 2) (c' : Fin 16) (d : Fin 128) (h w : Fin 80), i = ix5 b c' d h w :=
    ⟨i 0, i 1, i 2, i 3, i 4, eq_ix5 i⟩
  refine (congrFun (W4_v5 m c) (ix5 b c' d h w)).trans ?_
  refine (reshape_out (F := Ideal) (outArr m c) b c' d h w).trans ?_
  refine (W3_v4 m c b c' d _).trans ?_
  show _ = Cert.Spec.outAt (m ((c : Thread nD τ).loc main_arg0)) (m ((c : Thread nD τ).loc main_arg1)) (m ((c : Thread nD τ).loc main_arg2)) b c' d h w
  unfold Cert.Spec.outAt
  refine Finset.sum_congr rfl fun e _ => ?_
  refine congrArg (Cert.Spec.attn (m ((c : Thread nD τ).loc main_arg0)) (m ((c : Thread nD τ).loc main_arg1)) b d e * ·) ?_
  unfold Cert.Spec.flat
  have hh := h.isLt
  have hw := w.isLt
  refine congrArg (m ((c : Thread nD τ).loc main_arg2)) ?_
  refine congrArg₂ (ix5 b c' e) (Fin.ext ?_) (Fin.ext ?_)
  · show (80 * h.val + w.val) / 80 = h.val; omega
  · show (80 * h.val + w.val) % 80 = w.val; omega

/-- The idealized kernel's run with its result named: every weakly fair execution terminates, nothing faulting, with the
    result buffer at the specification's function of the arguments and the arguments unchanged. -/
theorem run_val (ρ : Dev nD → PrngReg) : θ_run defs (onTc (τ := τ) (main (F := Ideal))) ⟨m, fun _ => 0, ρ⟩ (fun r => ∀ c : Dev nD,
      r.2.mem ((c.tc : Thread nD τ).loc main_v5) = Cert.Spec.out (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v5 (by decide))).trans (result_eq m c),
     (h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide))⟩) (run_all m ρ)

end Cert.KernelIdeal.Fr

end
-- ==== Proof.RefScore.lean ====
/-
  The reference's scores are the specification's scores.

  The reference moves the channel axis next to the pixel axes and flattens the three into one axis of
  16 * 6400 = 102400 entries, then contracts that axis.  Entry f of the flattened axis is channel f / 6400 and pixel
  f % 6400, so the one sum over f is the double sum over the channel and the pixel.
-/
import proofs.«176884_j53326313947744_2_alg».proof.Proof.Spec
import proofs.«176884_j53326313947744_2_alg».proof.Proof.Gen.ReferenceIdeal.Read
import Idealize.ShloMosaic.Lib.ValueIdx
import Idealize.ShloMosaic.Lib.Pipeline.Value
import Idealize.ShloMosaic.PureOps.Ideal.Laws

noncomputable section

namespace Cert.RefBridge

open Cert.ReferenceIdeal Cert.ReferenceIdeal.Read Idealize.ShloMosaic Idealize.ShloMosaic.ValueIdx

/-- An argument array at the ideal instance. -/
abbrev Arg := (⟨S2x16x128x80x80, .f32⟩ : BufTy).Contents (Elt Ideal)

/-- The argument with the channel axis moved inward and the last three axes flattened, at (b, d, f): the argument at
    channel f / 6400, row f % 6400 / 80, column f % 80. -/
theorem flatT_at (x : Arg) (b : Fin 2) (d : Fin 128) (f : Fin 102400) :
    val_main_v1 (F := Ideal) x (ix3 b d f)
      = x (ix5 b (⟨f.val / 6400, by omega⟩ : Fin 16) d (⟨f.val % 6400 / 80, by omega⟩ : Fin 80)
            (⟨f.val % 80, by omega⟩ : Fin 80)) := by
  rw [val_main_v1_apply, val_main_v0_apply]
  refine congrArg x (funext fun a => Fin.ext ?_)
  have hb := b.isLt
  have hd := d.isLt
  have hf := f.isLt
  match a with
  | ⟨0, _⟩ => show ((b.val * 128 + d.val) * 102400 + f.val) / 13107200 = b.val; omega
  | ⟨1, _⟩ => show ((b.val * 128 + d.val) * 102400 + f.val) / 6400 % 16 = f.val / 6400; omega
  | ⟨2, _⟩ => show ((b.val * 128 + d.val) * 102400 + f.val) / 102400 % 128 = d.val; omega
  | ⟨3, _⟩ => show ((b.val * 128 + d.val) * 102400 + f.val) / 80 % 80 = f.val % 6400 / 80; omega
  | ⟨4, _⟩ => show ((b.val * 128 + d.val) * 102400 + f.val) % 80 = f.val % 80; omega

/-- The second operand of the first contraction is the same rearrangement of the second argument. -/
theorem flatT_at' (x : Arg) (b : Fin 2) (d : Fin 128) (f : Fin 102400) :
    val_main_v3 (F := Ideal) x (ix3 b d f)
      = x (ix5 b (⟨f.val / 6400, by omega⟩ : Fin 16) d (⟨f.val % 6400 / 80, by omega⟩ : Fin 80)
            (⟨f.val % 80, by omega⟩ : Fin 80)) :=
  flatT_at x b d f

/-- The second operand of the second contraction is the same rearrangement of the third argument. -/
theorem flatT_at'' (x : Arg) (b : Fin 2) (d : Fin 128) (f : Fin 102400) :
    val_main_v5 (F := Ideal) x (ix3 b d f)
      = x (ix5 b (⟨f.val / 6400, by omega⟩ : Fin 16) d (⟨f.val % 6400 / 80, by omega⟩ : Fin 80)
            (⟨f.val % 80, by omega⟩ : Fin 80)) :=
  flatT_at x b d f

/-- The pairs (channel, pixel) and the entries of the flattened axis: (c, k) is entry 6400 c + k. -/
def pairEquiv : Fin 16 × Fin 6400 ≃ Fin 102400 := finProdFinEquiv

theorem pairEquiv_val (c : Fin 16) (k : Fin 6400) : (pairEquiv (c, k)).val = k.val + 6400 * c.val := rfl

/-- At entry 6400 c + k of the flattened axis the rearranged argument is the specification's flat reading at (c, k). -/
theorem flatT_pair (x : Arg) (b : Fin 2) (d : Fin 128) (c : Fin 16) (k : Fin 6400) :
    x (ix5 b (⟨(pairEquiv (c, k)).val / 6400, by have := (pairEquiv (c, k)).isLt; omega⟩ : Fin 16) d
          (⟨(pairEquiv (c, k)).val % 6400 / 80, by omega⟩ : Fin 80) (⟨(pairEquiv (c, k)).val % 80, by omega⟩ : Fin 80))
      = Cert.Spec.flat x b c d k := by
  unfold Cert.Spec.flat
  refine congrArg x (funext fun a => Fin.ext ?_)
  have hv := pairEquiv_val c k
  have hc := c.isLt
  have hk := k.isLt
  match a with
  | ⟨0, _⟩ => rfl
  | ⟨1, _⟩ => show (pairEquiv (c, k)).val / 6400 = c.val; omega
  | ⟨2, _⟩ => rfl
  | ⟨3, _⟩ => show (pairEquiv (c, k)).val % 6400 / 80 = k.val / 80; omega
  | ⟨4, _⟩ => show (pairEquiv (c, k)).val % 80 = k.val % 80; omega

/-- THE SCORES. The first contraction at (b, d, e) is the specification's score. -/
theorem score_ref (x0 x1 : Arg) (b : Fin 2) (d e : Fin 128) :
    val_main_v6 (F := Ideal) x0 x1 (ix3 b d e) = Cert.Spec.score x0 x1 b d e := by
  rw [val_main_v6_apply]
  have hl : ∀ f : Fin 102400, lidx_main_v6 (ix3 b d e) f = ix3 b d f := fun f => funext fun a =>
    match a with | ⟨0, _⟩ => rfl | ⟨1, _⟩ => rfl | ⟨2, _⟩ => rfl
  have hr : ∀ f : Fin 102400, ridx_main_v6 (ix3 b d e) f = ix3 b e f := fun f => funext fun a =>
    match a with | ⟨0, _⟩ => rfl | ⟨1, _⟩ => rfl | ⟨2, _⟩ => rfl
  unfold Cert.Spec.score
  rw [← Equiv.sum_comp pairEquiv, Fintype.sum_prod_type]
  refine Finset.sum_congr rfl fun c _ => Finset.sum_congr rfl fun k _ => ?_
  rw [hl, hr, flatT_at, flatT_at', flatT_pair x0 b d c k, flatT_pair x1 b e c k]

end Cert.RefBridge

end
-- ==== Proof.LibFoldMax.lean ====
/-
  Maxima along one axis, read at an index given by coordinates, at the extended reals.

  The maximum of an `a × b` array along its first axis is, at column `c`, the fold of `max` over the rows `r` of the
  entries `(r, c)`, started from the value the accumulator word denotes; the maximum of an `m × n × k` array along its
  last axis, as the host's reduce with a maximum body computes it, is at `(p, q)` the fold of `max` over `r` of the entries
  `(p, q, r)`, started from the initial value.  `max` commutes and associates, so the order of the fold does not matter
  and both are folds over the whole finite set of coordinates.
-/
import Idealize.ShloMosaic.Lib.Pipeline.Value
import Idealize.ShloMosaic.Lib.ValueIdx
import Idealize.ShloMosaic.PureOps.Ideal.Laws

namespace Cert.LibFoldMax

open Idealize.ShloMosaic Idealize.ShloMosaic.ValueIdx

variable {φ : FTy}

/-- COLUMN MAXIMA. The float maximum of an `a × b` array along its first axis is, at column `c`, the fold of `max` over
    the rows, from the accumulator's value. -/
theorem multiReduction_maximumf_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun r => src (ix2 r c)) := by
  refine (Ideal.multiReduction_maximumf_single src acc h hφ hacc (ix1 c)).trans ?_
  refine congrArg (fun f => Finset.fold max (Ideal.ofBits φ acc) f (Finset.univ : Finset (Fin a)))
    (funext fun r => congrArg src (funext fun ax => Fin.ext ?_))
  rw [h.lift_val]
  unfold Shape.Reduces.liftVal
  match ax with
  | ⟨0, _⟩ => rfl
  | ⟨1, _⟩ => rfl

/-- LAST-AXIS MAXIMA ON THE HOST. A one-operand reduce with a maximum body over the last axis of an `m × n × k` array is,
    at `(p, q)`, the fold of `max` over that axis, from the initial value. -/
theorem hostReduce_maximumf_last3 {m n k : ℕ} (x : FVec Ideal ⟨3, ![m, n, k]⟩ φ) (init : (⟨0, ![]⟩ : Shape).Idx → Ideal φ)
    (h' : (⟨3, ![m, n, k]⟩ : Shape).ReducesTo [2] ⟨2, ![m, n]⟩) (h : (⟨3, ![m, n, k]⟩ : Shape).Reduces [2] ⟨2, ![m, n]⟩)
    (hu : 0 < (⟨0, ![]⟩ : Shape).numel) (p : Fin m) (q : Fin n) :
    Host.reduce FloatOps.maximumf x init h' hu (ix2 p q)
      = (Finset.univ : Finset (Fin k)).fold max (init (Shape.Idx.first hu)) (fun r => x (ix3 p q r)) := by
  refine (Host.reduce_eq_fold_single FloatOps.maximumf x init h' h hu (ix2 p q)).trans ?_
  refine congrArg (fun f => Finset.fold max (init (Shape.Idx.first hu)) f (Finset.univ : Finset (Fin k)))
    (funext fun r => congrArg x (funext fun ax => Fin.ext ?_))
  rw [h.lift_val]
  unfold Shape.Reduces.liftVal
  match ax with
  | ⟨0, _⟩ => rfl
  | ⟨1, _⟩ => rfl
  | ⟨2, _⟩ => rfl

end Cert.LibFoldMax
-- ==== Proof.RefBridge.lean ====
/-
  The reference's result is the specification's function of the arguments.

  Stage by stage at an index given by coordinates: the scores (the module RefScore), the row maximum (the fold of max
  over the row from minus infinity, then once more against minus infinity), the exponentials of the differences, their
  sum along the row, the quotient, and the second contraction, whose flattened axis is read back as channel, row and
  column.
-/
import proofs.«176884_j53326313947744_2_alg».proof.Proof.Spec
import proofs.«176884_j53326313947744_2_alg».proof.Proof.Gen.ReferenceIdeal.Read
import proofs.«176884_j53326313947744_2_alg».proof.Proof.RefScore
import proofs.«176884_j53326313947744_2_alg».proof.Proof.LibFoldMax
import Idealize.ShloMosaic.Lib.ValueIdx
import Idealize.ShloMosaic.Lib.Pipeline.Value
import Idealize.ShloMosaic.PureOps.Ideal.Laws

noncomputable section

namespace Cert.RefBridge

open Cert.ReferenceIdeal Cert.ReferenceIdeal.Gen Cert.ReferenceIdeal.Read Idealize.ShloMosaic Idealize.ShloMosaic.ValueIdx

/-- The word 0xFF800000 denotes minus infinity. -/
theorem ofBits_negInf : Ideal.ofBits .f32 0xFF800000#32 = ⊥ := by simp [Ideal.ofBits, Ideal.ieee]

/-- The row of scores at (b, d). -/
abbrev row (x0 x1 : Arg) (b : Fin 2) (d : Fin 128) : Fin 128 → EReal := fun e => Cert.Spec.score x0 x1 b d e

/-- THE ROW MAXIMUM. The maximum the reference subtracts at (b, d) is the specification's row maximum. -/
theorem rowMax_ref (x0 x1 : Arg) (b : Fin 2) (d : Fin 128) :
    val_main_v9 (F := Ideal) x0 x1 (ix2 b d) = Cert.Spec.rowMax (row x0 x1 b d) := by
  rw [val_main_v9_apply, val_main_v8_apply, val_main_cst_0_apply]
  unfold val_main_v7
  rw [Cert.LibFoldMax.hostReduce_maximumf_last3 (val_main_v6 (F := Ideal) x0 x1) (val_main_cst (F := Ideal))
    reducesTo_S2x128x128_S2x128_d2 (by decide) h_S_ b d]
  rw [val_main_cst_apply, Ideal.ofBits_def, Ideal.maximumf_def, ofBits_negInf]
  unfold Cert.Spec.rowMax
  refine congrArg (max ⊥) (congrArg (fun f => Finset.fold max (⊥ : EReal) f (Finset.univ : Finset (Fin 128))) ?_)
  exact funext fun e => score_ref x0 x1 b d e

/-- THE EXPONENTIALS. At (b, d, e): exp of the score minus the row maximum. -/
theorem expo_ref (x0 x1 : Arg) (b : Fin 2) (d e : Fin 128) :
    val_main_v13 (F := Ideal) x0 x1 (ix3 b d e)
      = Ideal.exp (row x0 x1 b d e - Cert.Spec.rowMax (row x0 x1 b d)) := by
  rw [val_main_v13_apply, val_main_v12_apply, val_main_v11_apply, val_main_v10_apply]
  have hi : idx_main_v10 (idx_main_v11 (ix3 b d e)) = ix2 b d := funext fun a =>
    match a with | ⟨0, _⟩ => rfl | ⟨1, _⟩ => rfl
  rw [hi, rowMax_ref, score_ref, Ideal.hostUnary_exp_def, Ideal.subf_def]

/-- THE DENOMINATOR. At (b, d): the sum of the row's exponentials. -/
theorem denom_ref (x0 x1 : Arg) (b : Fin 2) (d : Fin 128) :
    val_main_v14 (F := Ideal) x0 x1 (ix2 b d)
      = ∑ e : Fin 128, Ideal.exp (row x0 x1 b d e - Cert.Spec.rowMax (row x0 x1 b d)) := by
  rw [val_main_v14_apply, val_main_cst_1_apply, Ideal.ofBits_def, Ideal.ofBits_zero_f32, zero_add]
  refine Finset.sum_congr rfl fun e _ => ?_
  have hi : idx_main_v14 (ix2 b d) e = ix3 b d e := funext fun a =>
    match a with | ⟨0, _⟩ => rfl | ⟨1, _⟩ => rfl | ⟨2, _⟩ => rfl
  rw [hi, expo_ref]

/-- THE ATTENTION WEIGHTS. At (b, d, e): the specification's softmax of the row. -/
theorem attn_ref (x0 x1 : Arg) (b : Fin 2) (d e : Fin 128) :
    val_main_v17 (F := Ideal) x0 x1 (ix3 b d e) = Cert.Spec.attn x0 x1 b d e := by
  rw [val_main_v17_apply, val_main_v16_apply, val_main_v15_apply]
  have hi : idx_main_v15 (idx_main_v16 (ix3 b d e)) = ix2 b d := funext fun a =>
    match a with | ⟨0, _⟩ => rfl | ⟨1, _⟩ => rfl
  rw [hi, denom_ref, expo_ref, Ideal.hostDivf_def]
  rfl

/-- THE RESULT AT COORDINATES. -/
theorem ref_at (x0 x1 x2 : Arg) (b : Fin 2) (c : Fin 16) (d : Fin 128) (h w : Fin 80) :
    val_main_v20 (F := Ideal) x0 x1 x2 (ix5 b c d h w) = Cert.Spec.outAt x0 x1 x2 b c d h w := by
  have hb := b.isLt
  have hc := c.isLt
  have hd := d.isLt
  have hh := h.isLt
  have hw := w.isLt
  rw [val_main_v20_apply, val_main_v19_apply]
  have hi : idx_main_v19 (idx_main_v20 (ix5 b c d h w))
      = ix3 b d (⟨(c.val * 80 + h.val) * 80 + w.val, by omega⟩ : Fin 102400) := funext fun a => Fin.ext (by
    match a with
    | ⟨0, _⟩ =>
      show ((((b.val * 128 + d.val) * 16 + c.val) * 80 + h.val) * 80 + w.val) / 13107200 = b.val
      omega
    | ⟨1, _⟩ =>
      show ((((b.val * 128 + d.val) * 16 + c.val) * 80 + h.val) * 80 + w.val) / 102400 % 128 = d.val
      omega
    | ⟨2, _⟩ =>
      show ((((b.val * 128 + d.val) * 16 + c.val) * 80 + h.val) * 80 + w.val) % 102400 = (c.val * 80 + h.val) * 80 + w.val
      omega)
  rw [hi, val_main_v18_apply]
  unfold Cert.Spec.outAt
  refine Finset.sum_congr rfl fun e _ => ?_
  have hl : lidx_main_v18 (ix3 b d (⟨(c.val * 80 + h.val) * 80 + w.val, by omega⟩ : Fin 102400)) e = ix3 b d e :=
    funext fun a => match a with | ⟨0, _⟩ => rfl | ⟨1, _⟩ => rfl | ⟨2, _⟩ => rfl
  have hr : ridx_main_v18 (ix3 b d (⟨(c.val * 80 + h.val) * 80 + w.val, by omega⟩ : Fin 102400)) e
      = ix3 b e (⟨(c.val * 80 + h.val) * 80 + w.val, by omega⟩ : Fin 102400) :=
    funext fun a => match a with | ⟨0, _⟩ => rfl | ⟨1, _⟩ => rfl | ⟨2, _⟩ => rfl
  rw [hl, hr, attn_ref, flatT_at'']
  refine congrArg (Cert.Spec.attn x0 x1 b d e * ·) (congrArg x2 (funext fun a => Fin.ext ?_))
  match a with
  | ⟨0, _⟩ => rfl
  | ⟨1, _⟩ => show ((c.val * 80 + h.val) * 80 + w.val) / 6400 = c.val; omega
  | ⟨2, _⟩ => rfl
  | ⟨3, _⟩ => show ((c.val * 80 + h.val) * 80 + w.val) % 6400 / 80 = h.val; omega
  | ⟨4, _⟩ => show ((c.val * 80 + h.val) * 80 + w.val) % 80 = w.val; omega

/-- THE REFERENCE IS THE SPECIFICATION. -/
theorem ref_eq (x0 x1 x2 : (⟨Cert.ReferenceIdeal.S2x16x128x80x80, .f32⟩ : BufTy).Contents (Elt Ideal)) :
    Cert.ReferenceIdeal.Read.val_main_v20 (F := Ideal) x0 x1 x2 = Cert.Spec.out x0 x1 x2 := funext fun i => by
  show val_main_v20 (F := Ideal) x0 x1 x2 i = Cert.Spec.outAt x0 x1 x2 (i 0) (i 1) (i 2) (i 3) (i 4)
  refine (congrArg (val_main_v20 (F := Ideal) x0 x1 x2) (eq_ix5 i)).trans ?_
  exact ref_at x0 x1 x2 (i 0) (i 1) (i 2) (i 3) (i 4)

end Cert.RefBridge

end
-- ==== Proof.lean ====
/-
  The certificate's claim: the word-level kernel and its idealization run to the end, fault nowhere and leave their
  arguments unchanged; so does the idealized reference; the idealization rewrote nothing; and at the ideal instance the
  idealized kernel and the idealized reference, from memories agreeing on the arguments, end with equal results.

  The program: for x, xt, g of shape [2, 16, 128, 80, 80] read [B, C, D, H, W], with a plane (b, c, d) a row of 6400
  pixels k,  score (b, d, e) = sum over c, k of x (b, c, d, k) * xt (b, c, e, k);  attn = softmax of each score row;
  out (b, c, d, k) = sum over e of attn (b, d, e) * g (b, c, e, k).  The kernel computes the scores channel by channel
  into an accumulator over a 2 x 16 grid and applies the softmax at the last channel, then a second kernel forms the
  output blocks; the reference transposes and flattens channels and pixels into one axis of 102400 and uses two
  whole products.  The two sums differ only in grouping and order.
-/
import proofs.«176884_j53326313947744_2_alg».proof.Defs
import proofs.«176884_j53326313947744_2_alg».proof.Proof.Gen.Kernel
import proofs.«176884_j53326313947744_2_alg».proof.Proof.Gen.KernelIdeal
import proofs.«176884_j53326313947744_2_alg».proof.Proof.Gen.ReferenceIdeal
import proofs.«176884_j53326313947744_2_alg».proof.Proof.Gen.ReferenceIdeal.Run
import proofs.«176884_j53326313947744_2_alg».proof.Proof.Gen.Pre_finite_inputs
import proofs.«176884_j53326313947744_2_alg».proof.Proof.FrameK.Run
import proofs.«176884_j53326313947744_2_alg».proof.Proof.FrameKI.Run
import proofs.«176884_j53326313947744_2_alg».proof.Proof.FrameKI.Result
import proofs.«176884_j53326313947744_2_alg».proof.Proof.RefBridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Fr.frame m ρ
theorem frame_ki : @Cert.frame_KernelIdeal Cert.KernelIdeal.Gen.facts Cert.Pre_finite_inputs.Gen.facts :=
  fun m ρ _ => Cert.KernelIdeal.Fr.frame m ρ
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- At the ideal instance the kernel's result buffer ends at the specification's function of its arguments, and the
    reference's at its own composed term of arguments that agree with them, which is the same function. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Fr.run_val m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v20_eq _ _ _).trans (Cert.RefBridge.ref_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
